-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x10 : Shape := ⟨2, ![4194304, 10]⟩
abbrev S4194304x4 : Shape := ⟨2, ![4194304, 4]⟩
abbrev S4x4 : Shape := ⟨2, ![4, 4]⟩
abbrev S4 : Shape := ⟨1, ![4]⟩
abbrev S4x10 : Shape := ⟨2, ![4, 10]⟩
abbrev S_ : Shape := ⟨0, ![]⟩

class Facts : Prop where
  bcast_S_S4194304x10 : S_.BroadcastsInDim S4194304x10 (![] : Fin 0 → Fin S4194304x10.rank)
  reducesTo_S4194304x10_S_d0_1 : S4194304x10.ReducesTo [0, 1] S_
  h_S_ : 0 < S_.numel
  bcast_S_S4194304x4 : S_.BroadcastsInDim S4194304x4 (![] : Fin 0 → Fin S4194304x4.rank)
  reducesTo_S4194304x4_S_d0_1 : S4194304x4.ReducesTo [0, 1] S_
  bcast_S_S4x4 : S_.BroadcastsInDim S4x4 (![] : Fin 0 → Fin S4x4.rank)
  reducesTo_S4x4_S_d0_1 : S4x4.ReducesTo [0, 1] S_
  bcast_S_S4 : S_.BroadcastsInDim S4 (![] : Fin 0 → Fin S4.rank)
  reducesTo_S4_S_d0 : S4.ReducesTo [0] S_
  bcast_S_S4x10 : S_.BroadcastsInDim S4x10 (![] : Fin 0 → Fin S4x10.rank)
  reducesTo_S4x10_S_d0_1 : S4x10.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S4 .f32) (main_arg12 : FVec F S4x4 .f32) (main_arg13 : FVec F S4 .f32) (main_v48 : IVec S_ 1) (main_v49 : FVec F S4x10 .f32) (main_v50 : FVec F S4x10 .f32) : IVec S_ 1 :=
  let main_v51 : IVec S4x10 1 := cmpf .olt main_v49 main_v50
  let main_c_19 : IVec S_ 1 := constantI S_ 1 1#1
  let main_v52 : IVec S_ 1 := (fun x v => Host.reduce IntOp.andi x v reducesTo_S4x10_S_d0_1 h_S_) main_v51 main_c_19
  let main_v53 : IVec S_ 1 := andi main_v48 main_v52
  let main_v54 : FVec F S4 .f32 := Host.absf main_arg11
  let main_cst_20 : FVec F S_ .f32 := constant S_ .f32 0x7F800000#32
  let main_v55 : FVec F S4 .f32 := broadcastInDim S4 ![] bcast_S_S4 main_cst_20
  let main_v56 : IVec S4 1 := cmpf .olt main_v54 main_v55
  let main_c_21 : IVec S_ 1 := constantI S_ 1 1#1
  let main_v57 : IVec S_ 1 := (fun x v => Host.reduce IntOp.andi x v reducesTo_S4_S_d0 h_S_) main_v56 main_c_21
  let main_v58 : IVec S_ 1 := andi main_v53 main_v57
  let main_v59 : FVec F S4x4 .f32 := Host.absf main_arg12
  let main_cst_22 : FVec F S_ .f32 := constant S_ .f32 0x7F800000#32
  let main_v60 : FVec F S4x4 .f32 := broadcastInDim S4x4 ![] bcast_S_S4x4 main_cst_22
  let main_v61 : IVec S4x4 1 := cmpf .olt main_v59 main_v60
  let main_c_23 : IVec S_ 1 := constantI S_ 1 1#1
  let main_v62 : IVec S_ 1 := (fun x v => Host.reduce IntOp.andi x v reducesTo_S4x4_S_d0_1 h_S_) main_v61 main_c_23
  let main_v63 : IVec S_ 1 := andi main_v58 main_v62
  let main_v64 : FVec F S4 .f32 := Host.absf main_arg13
  let main_cst_24 : FVec F S_ .f32 := constant S_ .f32 0x7F800000#32
  let main_v65 : FVec F S4 .f32 := broadcastInDim S4 ![] bcast_S_S4 main_cst_24
  let main_v66 : IVec S4 1 := cmpf .olt main_v64 main_v65
  let main_c_25 : IVec S_ 1 := constantI S_ 1 1#1
  let main_v67 : IVec S_ 1 := (fun x v => Host.reduce IntOp.andi x v reducesTo_S4_S_d0 h_S_) main_v66 main_c_25
  fn_part4 (F := F) main_v63 main_v67

def fn_part2 {F : FTy → Type} [FloatOps F] (main_arg7 : FVec F S4 .f32) (main_arg8 : FVec F S4x10 .f32) (main_arg9 : FVec F S4 .f32) (main_arg10 : FVec F S4x10 .f32) (main_arg11 : FVec F S4 .f32) (main_arg12 : FVec F S4x4 .f32) (main_arg13 : FVec F S4 .f32) (main_v33 : IVec S_ 1) : IVec S_ 1 :=
  let main_v34 : FVec F S4 .f32 := Host.absf main_arg7
  let main_cst_12 : FVec F S_ .f32 := constant S_ .f32 0x7F800000#32
  let main_v35 : FVec F S4 .f32 := broadcastInDim S4 ![] bcast_S_S4 main_cst_12
  let main_v36 : IVec S4 1 := cmpf .olt main_v34 main_v35
  let main_c_13 : IVec S_ 1 := constantI S_ 1 1#1
  let main_v37 : IVec S_ 1 := (fun x v => Host.reduce IntOp.andi x v reducesTo_S4_S_d0 h_S_) main_v36 main_c_13
  let main_v38 : IVec S_ 1 := andi main_v33 main_v37
  let main_v39 : FVec F S4x10 .f32 := Host.absf main_arg8
  let main_cst_14 : FVec F S_ .f32 := constant S_ .f32 0x7F800000#32
  let main_v40 : FVec F S4x10 .f32 := broadcastInDim S4x10 ![] bcast_S_S4x10 main_cst_14
  let main_v41 : IVec S4x10 1 := cmpf .olt main_v39 main_v40
  let main_c_15 : IVec S_ 1 := constantI S_ 1 1#1
  let main_v42 : IVec S_ 1 := (fun x v => Host.reduce IntOp.andi x v reducesTo_S4x10_S_d0_1 h_S_) main_v41 main_c_15
  let main_v43 : IVec S_ 1 := andi main_v38 main_v42
  let main_v44 : FVec F S4 .f32 := Host.absf main_arg9
  let main_cst_16 : FVec F S_ .f32 := constant S_ .f32 0x7F800000#32
  let main_v45 : FVec F S4 .f32 := broadcastInDim S4 ![] bcast_S_S4 main_cst_16
  let main_v46 : IVec S4 1 := cmpf .olt main_v44 main_v45
  let main_c_17 : IVec S_ 1 := constantI S_ 1 1#1
  let main_v47 : IVec S_ 1 := (fun x v => Host.reduce IntOp.andi x v reducesTo_S4_S_d0 h_S_) main_v46 main_c_17
  let main_v48 : IVec S_ 1 := andi main_v43 main_v47
  let main_v49 : FVec F S4x10 .f32 := Host.absf main_arg10
  let main_cst_18 : FVec F S_ .f32 := constant S_ .f32 0x7F800000#32
  let main_v50 : FVec F S4x10 .f32 := broadcastInDim S4x10 ![] bcast_S_S4x10 main_cst_18
  fn_part3 (F := F) main_arg11 main_arg12 main_arg13 main_v48 main_v49 main_v50

def fn_part1 {F : FTy → Type} [FloatOps F] (main_arg4 : FVec F S4x10 .f32) (main_arg5 : FVec F S4 .f32) (main_arg6 : FVec F S4x4 .f32) (main_arg7 : FVec F S4 .f32) (main_arg8 : FVec F S4x10 .f32) (main_arg9 : FVec F S4 .f32) (main_arg10 : FVec F S4x10 .f32) (main_arg11 : FVec F S4 .f32) (main_arg12 : FVec F S4x4 .f32) (main_arg13 : FVec F S4 .f32) (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : IVec S_ 1 := andi main_v13 main_v17
  let main_v19 : FVec F S4x10 .f32 := Host.absf main_arg4
  let main_cst_6 : FVec F S_ .f32 := constant S_ .f32 0x7F800000#32
  let main_v20 : FVec F S4x10 .f32 := broadcastInDim S4x10 ![] bcast_S_S4x10 main_cst_6
  let main_v21 : IVec S4x10 1 := cmpf .olt main_v19 main_v20
  let main_c_7 : IVec S_ 1 := constantI S_ 1 1#1
  let main_v22 : IVec S_ 1 := (fun x v => Host.reduce IntOp.andi x v reducesTo_S4x10_S_d0_1 h_S_) main_v21 main_c_7
  let main_v23 : IVec S_ 1 := andi main_v18 main_v22
  let main_v24 : FVec F S4 .f32 := Host.absf main_arg5
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  let main_v29 : FVec F S4x4 .f32 := Host.absf main_arg6
  let main_cst_10 : FVec F S_ .f32 := constant S_ .f32 0x7F800000#32
  let main_v30 : FVec F S4x4 .f32 := broadcastInDim S4x4 ![] bcast_S_S4x4 main_cst_10
  let main_v31 : IVec S4x4 1 := cmpf .olt main_v29 main_v30
  let main_c_11 : IVec S_ 1 := constantI S_ 1 1#1
  let main_v32 : IVec S_ 1 := (fun x v => Host.reduce IntOp.andi x v reducesTo_S4x4_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S4194304x10 .f32) (main_arg1 : FVec F S4194304x4 .f32) (main_arg2 : FVec F S4x4 .f32) (main_arg3 : FVec F S4 .f32) (main_arg4 : FVec F S4x10 .f32) (main_arg5 : FVec F S4 .f32) (main_arg6 : FVec F S4x4 .f32) (main_arg7 : FVec F S4 .f32) (main_arg8 : FVec F S4x10 .f32) (main_arg9 : FVec F S4 .f32) (main_arg10 : FVec F S4x10 .f32) (main_arg11 : FVec F S4 .f32) (main_arg12 : FVec F S4x4 .f32) (main_arg13 : FVec F S4 .f32) : IVec S_ 1 :=
  let main_v0 : FVec F S4194304x10 .f32 := Host.absf main_arg0
  let main_cst : FVec F S_ .f32 := constant S_ .f32 0x7F800000#32
  let main_v1 : FVec F S4194304x10 .f32 := broadcastInDim S4194304x10 ![] bcast_S_S4194304x10 main_cst
  let main_v2 : IVec S4194304x10 1 := cmpf .olt main_v0 main_v1
  let main_c : IVec S_ 1 := constantI S_ 1 1#1
  let main_v3 : IVec S_ 1 := (fun x v => Host.reduce IntOp.andi x v reducesTo_S4194304x10_S_d0_1 h_S_) main_v2 main_c
  let main_v4 : FVec F S4194304x4 .f32 := Host.absf main_arg1
  let main_cst_0 : FVec F S_ .f32 := constant S_ .f32 0x7F800000#32
  let main_v5 : FVec F S4194304x4 .f32 := broadcastInDim S4194304x4 ![] bcast_S_S4194304x4 main_cst_0
  let main_v6 : IVec S4194304x4 1 := cmpf .olt main_v4 main_v5
  let main_c_1 : IVec S_ 1 := constantI S_ 1 1#1
  let main_v7 : IVec S_ 1 := (fun x v => Host.reduce IntOp.andi x v reducesTo_S4194304x4_S_d0_1 h_S_) main_v6 main_c_1
  let main_v8 : IVec S_ 1 := andi main_v3 main_v7
  let main_v9 : FVec F S4x4 .f32 := Host.absf main_arg2
  let main_cst_2 : FVec F S_ .f32 := constant S_ .f32 0x7F800000#32
  let main_v10 : FVec F S4x4 .f32 := broadcastInDim S4x4 ![] bcast_S_S4x4 main_cst_2
  let main_v11 : IVec S4x4 1 := cmpf .olt main_v9 main_v10
  let main_c_3 : IVec S_ 1 := constantI S_ 1 1#1
  let main_v12 : IVec S_ 1 := (fun x v => Host.reduce IntOp.andi x v reducesTo_S4x4_S_d0_1 h_S_) main_v11 main_c_3
  let main_v13 : IVec S_ 1 := andi main_v8 main_v12
  let main_v14 : FVec F S4 .f32 := Host.absf main_arg3
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_arg4 main_arg5 main_arg6 main_arg7 main_arg8 main_arg9 main_arg10 main_arg11 main_arg12 main_arg13 main_v13 main_v16
-- ==== Kernel.lean ====
abbrev S4194304x10 : Shape := ⟨2, ![4194304, 10]⟩
abbrev S4194304x4 : Shape := ⟨2, ![4194304, 4]⟩
abbrev S4x4 : Shape := ⟨2, ![4, 4]⟩
abbrev S4 : Shape := ⟨1, ![4]⟩
abbrev S4x10 : Shape := ⟨2, ![4, 10]⟩
abbrev S10x4 : Shape := ⟨2, ![10, 4]⟩
abbrev S10x12 : Shape := ⟨2, ![10, 12]⟩
abbrev S4x12 : Shape := ⟨2, ![4, 12]⟩
abbrev S12 : Shape := ⟨1, ![12]⟩
abbrev S1x12 : Shape := ⟨2, ![1, 12]⟩
abbrev S8192x10 : Shape := ⟨2, ![8192, 10]⟩
abbrev S8192x4 : Shape := ⟨2, ![8192, 4]⟩
abbrev S8192x12 : Shape := ⟨2, ![8192, 12]⟩
abbrev S8192x8 : Shape := ⟨2, ![8192, 8]⟩

abbrev nBuf : Space → Nat
  | .hbm => 27
  | .vmem => 10
  | .smem => 0
  | _ => 0

abbrev bufTy : (tb : Table) → Fin (tcTables nBuf tb) → BufTy
  | .hbm, ⟨0, _⟩ => ⟨S4194304x10, .f32⟩
  | .hbm, ⟨1, _⟩ => ⟨S4194304x4, .f32⟩
  | .hbm, ⟨2, _⟩ => ⟨S4x4, .f32⟩
  | .hbm, ⟨3, _⟩ => ⟨S4, .f32⟩
  | .hbm, ⟨4, _⟩ => ⟨S4x10, .f32⟩
  | .hbm, ⟨5, _⟩ => ⟨S4, .f32⟩
  | .hbm, ⟨6, _⟩ => ⟨S4x4, .f32⟩
  | .hbm, ⟨7, _⟩ => ⟨S4, .f32⟩
  | .hbm, ⟨8, _⟩ => ⟨S4x10, .f32⟩
  | .hbm, ⟨9, _⟩ => ⟨S4, .f32⟩
  | .hbm, ⟨10, _⟩ => ⟨S4x10, .f32⟩
  | .hbm, ⟨11, _⟩ => ⟨S4, .f32⟩
  | .hbm, ⟨12, _⟩ => ⟨S4x4, .f32⟩
  | .hbm, ⟨13, _⟩ => ⟨S4, .f32⟩
  | .hbm, ⟨14, _⟩ => ⟨S10x4, .f32⟩
  | .hbm, ⟨15, _⟩ => ⟨S10x4, .f32⟩
  | .hbm, ⟨16, _⟩ => ⟨S10x4, .f32⟩
  | .hbm, ⟨17, _⟩ => ⟨S10x12, .f32⟩
  | .hbm, ⟨18, _⟩ => ⟨S4x4, .f32⟩
  | .hbm, ⟨19, _⟩ => ⟨S4x4, .f32⟩
  | .hbm, ⟨20, _⟩ => ⟨S4x4, .f32⟩
  | .hbm, ⟨21, _⟩ => ⟨S4x12, .f32⟩
  | .hbm, ⟨22, _⟩ => ⟨S12, .f32⟩
  | .hbm, ⟨23, _⟩ => ⟨S1x12, .f32⟩
  | .hbm, ⟨24, _⟩ => ⟨S12, .f32⟩
  | .hbm, ⟨25, _⟩ => ⟨S1x12, .f32⟩
  | .hbm, ⟨26, _⟩ => ⟨S4194304x4, .f32⟩
  | .local _ .vmem, ⟨0, _⟩ => ⟨S8192x10, .f32⟩
  | .local _ .vmem, ⟨1, _⟩ => ⟨S8192x10, .f32⟩
  | .local _ .vmem, ⟨2, _⟩ => ⟨S8192x4, .f32⟩
  | .local _ .vmem, ⟨3, _⟩ => ⟨S8192x4, .f32⟩
  | .local _ .vmem, ⟨4, _⟩ => ⟨S10x12, .f32⟩
  | .local _ .vmem, ⟨5, _⟩ => ⟨S1x12, .f32⟩
  | .local _ .vmem, ⟨6, _⟩ => ⟨S4x12, .f32⟩
  | .local _ .vmem, ⟨7, _⟩ => ⟨S1x12, .f32⟩
  | .local _ .vmem, ⟨8, _⟩ => ⟨S8192x4, .f32⟩
  | .local _ .vmem, ⟨9, _⟩ => ⟨S8192x4, .f32⟩
  | _, _ => ⟨S4194304x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x12 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x12 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x12 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8192x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S4x10_S10x4_1_0 : S4x10.Transposes [1, 0] S10x4
  concatenates_S10x4_S10x4_S10x4_S10x12_d1 : Shape.Concatenates [S10x4, S10x4, S10x4] S10x12 1
  transposes_S4x4_S4x4_1_0 : S4x4.Transposes [1, 0] S4x4
  concatenates_S4x4_S4x4_S4x4_S4x12_d1 : Shape.Concatenates [S4x4, S4x4, S4x4] S4x12 1
  concatenates_S4_S4_S4_S12_d0 : Shape.Concatenates [S4, S4, S4] S12 0
  shapeCasts_S12_S1x12 : S12.ShapeCasts S1x12
  inb_S8192x10_S8192x10_0_0 : ∀ a, (![0, 0] : Fin 2 → Nat) a + S8192x10.size a ≤ S8192x10.size a
  h_S8192x10 : 0 < S8192x10.numel
  inb_S8192x4_S8192x4_0_0 : ∀ a, (![0, 0] : Fin 2 → Nat) a + S8192x4.size a ≤ S8192x4.size a
  h_S8192x4 : 0 < S8192x4.numel
  inb_S10x12_S10x12_0_0 : ∀ a, (![0, 0] : Fin 2 → Nat) a + S10x12.size a ≤ S10x12.size a
  h_S10x12 : 0 < S10x12.numel
  shapeCasts_S10x12_S10x12 : S10x12.ShapeCasts S10x12
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S8192x12 : S1x12.Broadcasts S8192x12
  inb_S4x12_S4x12_0_0 : ∀ a, (![0, 0] : Fin 2 → Nat) a + S4x12.size a ≤ S4x12.size a
  h_S4x12 : 0 < S4x12.numel
  shapeCasts_S4x12_S4x12 : S4x12.ShapeCasts S4x12
  slices_S8192x12_o0_0_S8192x8 : S8192x12.Slices ![0, 0] S8192x8
  slices_S8192x8_o0_0_S8192x4 : S8192x8.Slices ![0, 0] S8192x4
  slices_S8192x8_o0_4_S8192x4 : S8192x8.Slices ![0, 4] S8192x4
  slices_S8192x12_o0_8_S8192x4 : S8192x12.Slices ![0, 8] S8192x4
  dot_S8192x10_S10x12_S8192x12_1_0_0_1_n_n_wf : DotDims.WF S8192x10 S10x12 S8192x12 [1] [0] [0] [1] [] []
  dot_S8192x4_S4x12_S8192x12_1_0_0_1_n_n_wf : DotDims.WF S8192x4 S4x12 S8192x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x10.size a ≤ S4194304x10.size a
  hwx0_0 : ∀ i : grid0.Coords, EltTy.bits .f32 = 32 ∨ (Rect.block (s := S4194304x10) S8192x10.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x4.size a ≤ S4194304x4.size a
  hwx0_1 : ∀ i : grid0.Coords, EltTy.bits .f32 = 32 ∨ (Rect.block (s := S4194304x4) S8192x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x12.size a ≤ S10x12.size a
  hwx0_2 : ∀ i : grid0.Coords, EltTy.bits .f32 = 32 ∨ (Rect.block (s := S10x12) S10x12.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x12.size a ≤ S1x12.size a
  hwx0_3 : ∀ i : grid0.Coords, EltTy.bits .f32 = 32 ∨ (Rect.block (s := S1x12) S1x12.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x12.size a ≤ S4x12.size a
  hwx0_4 : ∀ i : grid0.Coords, EltTy.bits .f32 = 32 ∨ (Rect.block (s := S4x12) S4x12.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x12.size a ≤ S1x12.size a
  hwx0_5 : ∀ i : grid0.Coords, EltTy.bits .f32 = 32 ∨ (Rect.block (s := S1x12) S1x12.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8192x4.size a ≤ S4194304x4.size a
  hwx0_6 : ∀ i : grid0.Coords, EltTy.bits .f32 = 32 ∨ (Rect.block (s := S4194304x4) S8192x4.size (cc0_transform_6 i) (hinb0_6 i)).WholeWords (EltTy.packing .f32)

variable [Facts₀]

def dot_S8192x10_S10x12_S8192x12_1_0_0_1_n_n : DotDims S8192x10 S10x12 S8192x12 where
  lhsContracting := [1]
  rhsContracting := [0]
  lhsNonContracting := [0]
  rhsNonContracting := [1]
  lhsBatch := []
  rhsBatch := []
  wf := dot_S8192x10_S10x12_S8192x12_1_0_0_1_n_n_wf
def dot_S8192x4_S4x12_S8192x12_1_0_0_1_n_n : DotDims S8192x4 S4x12 S8192x12 where
  lhsContracting := [1]
  rhsContracting := [0]
  lhsNonContracting := [0]
  rhsNonContracting := [1]
  lhsBatch := []
  rhsBatch := []
  wf := dot_S8192x4_S4x12_S8192x12_1_0_0_1_n_n_wf

abbrev win0_0 : Pipeline.Window sig grid0 :=
  Pipeline.Window.ofSpec (Memref.whole main_arg0) S8192x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S10x12.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x12.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S4x12.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x12.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S8192x4.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4194304x10 : Shape := ⟨2, ![4194304, 10]⟩
abbrev S4194304x4 : Shape := ⟨2, ![4194304, 4]⟩
abbrev S4x4 : Shape := ⟨2, ![4, 4]⟩
abbrev S4 : Shape := ⟨1, ![4]⟩
abbrev S4x10 : Shape := ⟨2, ![4, 10]⟩
abbrev S1x4 : Shape := ⟨2, ![1, 4]⟩
abbrev S10x4 : Shape := ⟨2, ![10, 4]⟩
abbrev S_ : Shape := ⟨0, ![]⟩

abbrev nBuf : Space → Nat
  | .hbm => 71
  | .vmem => 0
  | .smem => 0
  | _ => 0

abbrev bufTy : (tb : Table) → Fin (tcTables nBuf tb) → BufTy
  | .hbm, ⟨0, _⟩ => ⟨S4194304x10, .f32⟩
  | .hbm, ⟨1, _⟩ => ⟨S4194304x4, .f32⟩
  | .hbm, ⟨2, _⟩ => ⟨S4x4, .f32⟩
  | .hbm, ⟨3, _⟩ => ⟨S4, .f32⟩
  | .hbm, ⟨4, _⟩ => ⟨S4x10, .f32⟩
  | .hbm, ⟨5, _⟩ => ⟨S4, .f32⟩
  | .hbm, ⟨6, _⟩ => ⟨S4x4, .f32⟩
  | .hbm, ⟨7, _⟩ => ⟨S4, .f32⟩
  | .hbm, ⟨8, _⟩ => ⟨S4x10, .f32⟩
  | .hbm, ⟨9, _⟩ => ⟨S4, .f32⟩
  | .hbm, ⟨10, _⟩ => ⟨S4x10, .f32⟩
  | .hbm, ⟨11, _⟩ => ⟨S4, .f32⟩
  | .hbm, ⟨12, _⟩ => ⟨S4x4, .f32⟩
  | .hbm, ⟨13, _⟩ => ⟨S4, .f32⟩
  | .hbm, ⟨14, _⟩ => ⟨S4x4, .f32⟩
  | .hbm, ⟨15, _⟩ => ⟨S4194304x4, .f32⟩
  | .hbm, ⟨16, _⟩ => ⟨S1x4, .f32⟩
  | .hbm, ⟨17, _⟩ => ⟨S4194304x4, .f32⟩
  | .hbm, ⟨18, _⟩ => ⟨S4194304x4, .f32⟩
  | .hbm, ⟨19, _⟩ => ⟨S10x4, .f32⟩
  | .hbm, ⟨20, _⟩ => ⟨S4194304x4, .f32⟩
  | .hbm, ⟨21, _⟩ => ⟨S4194304x4, .f32⟩
  | .hbm, ⟨22, _⟩ => ⟨S1x4, .f32⟩
  | .hbm, ⟨23, _⟩ => ⟨S4194304x4, .f32⟩
  | .hbm, ⟨24, _⟩ => ⟨S4194304x4, .f32⟩
  | .hbm, ⟨25, _⟩ => ⟨S4194304x4, .f32⟩
  | .hbm, ⟨26, _⟩ => ⟨S4194304x4, .f32⟩
  | .hbm, ⟨27, _⟩ => ⟨S_, .f32⟩
  | .hbm, ⟨28, _⟩ => ⟨S4194304x4, .f32⟩
  | .hbm, ⟨29, _⟩ => ⟨S4194304x4, .f32⟩
  | .hbm, ⟨30, _⟩ => ⟨S_, .f32⟩
  | .hbm, ⟨31, _⟩ => ⟨S4194304x4, .f32⟩
  | .hbm, ⟨32, _⟩ => ⟨S4194304x4, .f32⟩
  | .hbm, ⟨33, _⟩ => ⟨S4x4, .f32⟩
  | .hbm, ⟨34, _⟩ => ⟨S4194304x4, .f32⟩
  | .hbm, ⟨35, _⟩ => ⟨S1x4, .f32⟩
  | .hbm, ⟨36, _⟩ => ⟨S4194304x4, .f32⟩
  | .hbm, ⟨37, _⟩ => ⟨S4194304x4, .f32⟩
  | .hbm, ⟨38, _⟩ => ⟨S10x4, .f32⟩
  | .hbm, ⟨39, _⟩ => ⟨S4194304x4, .f32⟩
  | .hbm, ⟨40, _⟩ => ⟨S4194304x4, .f32⟩
  | .hbm, ⟨41, _⟩ => ⟨S1x4, .f32⟩
  | .hbm, ⟨42, _⟩ => ⟨S4194304x4, .f32⟩
  | .hbm, ⟨43, _⟩ => ⟨S4194304x4, .f32⟩
  | .hbm, ⟨44, _⟩ => ⟨S4194304x4, .f32⟩
  | .hbm, ⟨45, _⟩ => ⟨S4194304x4, .f32⟩
  | .hbm, ⟨46, _⟩ => ⟨S_, .f32⟩
  | .hbm, ⟨47, _⟩ => ⟨S4194304x4, .f32⟩
  | .hbm, ⟨48, _⟩ => ⟨S4194304x4, .f32⟩
  | .hbm, ⟨49, _⟩ => ⟨S_, .f32⟩
  | .hbm, ⟨50, _⟩ => ⟨S4194304x4, .f32⟩
  | .hbm, ⟨51, _⟩ => ⟨S4194304x4, .f32⟩
  | .hbm, ⟨52, _⟩ => ⟨S4x4, .f32⟩
  | .hbm, ⟨53, _⟩ => ⟨S4194304x4, .f32⟩
  | .hbm, ⟨54, _⟩ => ⟨S1x4, .f32⟩
  | .hbm, ⟨55, _⟩ => ⟨S4194304x4, .f32⟩
  | .hbm, ⟨56, _⟩ => ⟨S4194304x4, .f32⟩
  | .hbm, ⟨57, _⟩ => ⟨S4194304x4, .f32⟩
  | .hbm, ⟨58, _⟩ => ⟨S10x4, .f32⟩
  | .hbm, ⟨59, _⟩ => ⟨S4194304x4, .f32⟩
  | .hbm, ⟨60, _⟩ => ⟨S4194304x4, .f32⟩
  | .hbm, ⟨61, _⟩ => ⟨S1x4, .f32⟩
  | .hbm, ⟨62, _⟩ => ⟨S4194304x4, .f32⟩
  | .hbm, ⟨63, _⟩ => ⟨S4194304x4, .f32⟩
  | .hbm, ⟨64, _⟩ => ⟨S4194304x4, .f32⟩
  | .hbm, ⟨65, _⟩ => ⟨S_, .f32⟩
  | .hbm, ⟨66, _⟩ => ⟨S4194304x4, .f32⟩
  | .hbm, ⟨67, _⟩ => ⟨S4194304x4, .f32⟩
  | .hbm, ⟨68, _⟩ => ⟨S4194304x4, .f32⟩
  | .hbm, ⟨69, _⟩ => ⟨S4194304x4, .f32⟩
  | .hbm, ⟨70, _⟩ => ⟨S4194304x4, .f32⟩
  | _, _ => ⟨S4194304x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_1 : Ref sig .tc := ⟨.hbm, 46, rfl⟩
abbrev main_v30 : Ref sig .tc := ⟨.hbm, 47, rfl⟩
abbrev main_v31 : Ref sig .tc := ⟨.hbm, 48, rfl⟩
abbrev main_cst_2 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_3 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]

class Facts₀ : Prop where
  transposes_S4x4_S4x4_1_0 : S4x4.Transposes [1, 0] S4x4
  bcast_S4_S1x4_1 : S4.BroadcastsInDim S1x4 (![1] : Fin 1 → Fin S1x4.rank)
  bcast_S1x4_S4194304x4_0_1 : S1x4.BroadcastsInDim S4194304x4 (![0, 1] : Fin 2 → Fin S4194304x4.rank)
  transposes_S4x10_S10x4_1_0 : S4x10.Transposes [1, 0] S10x4
  bcast_S_S4194304x4 : S_.BroadcastsInDim S4194304x4 (![] : Fin 0 → Fin S4194304x4.rank)
  dot_S4194304x4_S4x4_S4194304x4_1_0_0_1_n_n_wf : DotDims.WF S4194304x4 S4x4 S4194304x4 [1] [0] [0] [1] [] []
  dot_S4194304x10_S10x4_S4194304x4_1_0_0_1_n_n_wf : DotDims.WF S4194304x10 S10x4 S4194304x4 [1] [0] [0] [1] [] []

variable [Facts₀]

def dot_S4194304x4_S4x4_S4194304x4_1_0_0_1_n_n : DotDims S4194304x4 S4x4 S4194304x4 where
  lhsContracting := [1]
  rhsContracting := [0]
  lhsNonContracting := [0]
  rhsNonContracting := [1]
  lhsBatch := []
  rhsBatch := []
  wf := dot_S4194304x4_S4x4_S4194304x4_1_0_0_1_n_n_wf
def dot_S4194304x10_S10x4_S4194304x4_1_0_0_1_n_n : DotDims S4194304x10 S10x4 S4194304x4 where
  lhsContracting := [1]
  rhsContracting := [0]
  lhsNonContracting := [0]
  rhsNonContracting := [1]
  lhsBatch := []
  rhsBatch := []
  wf := dot_S4194304x10_S10x4_S4194304x4_1_0_0_1_n_n_wf

class Facts : Prop extends Facts₀ where

variable [Facts]
-- ==== Proof.FrameK.lean ====
/-
  The frame of this program, proved against the pipeline library's launch theorem: the program
  runs to the end on every weakly fair schedule, faults nowhere, and leaves its fourteen argument
  arrays as launched.

  The program is twelve host operations (transposes of the six weight matrices, the three matrices
  of each path laid side by side as one matrix of twelve columns, the three bias vectors of each path
  joined into one row), then one region over a grid of 512 points. At point t the region hands the
  body rows 8192·t … 8192·t + 8191 of x and of h, the four small arrays whole, and a staging buffer
  for the same rows of the result. The body reads its six inputs whole, computes, and stores the
  result's block whole; it keeps nothing from one point to the next. So after the body every input
  buffer holds what it held, the output buffer holds the body's one stored value, and the launch
  theorem gives the run. No host operation writes an argument array and the region writes only its
  result, which gives the frame.
-/
import proofs.«101321_j53386443489424_2_alg».proof.Proof.Gen.Kernel.Launch
import proofs.«101321_j53386443489424_2_alg».proof.Proof.Gen.Kernel.Skeleton
import proofs.«101321_j53386443489424_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- Core c's buffers when the region is entered: the launch memory after the twelve host operations. -/
abbrev V (c : Dev nD) (b : Ref sig .tc) : Buf (Elt F) ((c : Thread nD τ).loc b) :=
  StableHlo.after hostOps0 (fun b => m (c, b)) b

/-- No host operation leaves a buffer at contents of the machine's choosing. -/
theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame from a run to the launch theorem's post -/

/-- In any state the launch theorem's post holds of, the fourteen arguments are as launched: the two staged ones
    are read off the proof data's final arrays (an input window's array ends as it began), the twelve others are
    buffers the region does not touch; each is then as launched because no host operation writes it. -/
theorem kept_args (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  ⟨((h c).1 0).trans (((dats 0 c).arrAt_in 0 rfl _).trans ((hA c 0).trans (V_main_arg0 m c))),
    ((h c).1 1).trans (((dats 0 c).arrAt_in 1 rfl _).trans ((hA c 1).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c)⟩

/-- So a run to that post is the frame. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => kept_args m dats hA r h c) h

/-! ## What the body leaves in the output window's buffer -/

/-- The rectangles the body reads and stores through: each the whole of its buffer. -/
abbrev rX : Rect S8192x10 := Rect.unit (s := S8192x10) ![0, 0] S8192x10.size inb_S8192x10_S8192x10_0_0
abbrev rH : Rect S8192x4 := Rect.unit (s := S8192x4) ![0, 0] S8192x4.size inb_S8192x4_S8192x4_0_0
abbrev rWx : Rect S10x12 := Rect.unit (s := S10x12) ![0, 0] S10x12.size inb_S10x12_S10x12_0_0
abbrev rB : Rect S1x12 := Rect.unit (s := S1x12) ![0, 0] S1x12.size inb_S1x12_S1x12_0_0
abbrev rWh : Rect S4x12 := Rect.unit (s := S4x12) ![0, 0] S4x12.size inb_S4x12_S4x12_0_0
abbrev rOut : Rect S8192x4 := Rect.unit (s := S8192x4) ![0, 0] S8192x4.size inb_S8192x4_S8192x4_0_0

/-- The output buffer after the body, from the six input blocks: its one store, of the body's value. -/
def out0_6 (x0 : Vec F S8192x10 .f32) (x1 : Vec F S8192x4 .f32) (x2 : Vec F S10x12 .f32) (x3 : Vec F S1x12 .f32) (x4 : Vec F S4x12 .f32) (x5 : Vec F S1x12 .f32) : Vec F S8192x4 .f32 :=
  View.canon [⟨rOut, k0_pay1 (View.ld x0 rX) (View.ld x1 rH) (View.ld x2 rWx) (View.ld x3 rB) (View.ld x4 rWh) (View.ld x5 rB)⟩]

/-- The one store covers the buffer. -/
theorem cover0_6 (p0 : Vec F S8192x4 .f32) (y : S8192x4.Idx) :
    ∃ pc ∈ ([⟨rOut, p0⟩] : List (View.Piece (Elt F) S8192x4 .f32)), y ∈ pc.1.set :=
  View.cover_of_tiled [⟨rOut, p0⟩] S8192x4.size (by rfl) y

/-! ## The body's triple -/

set_option maxHeartbeats 1000000 in
/-- The body on whole staging buffers, the six inputs' at contents x0 … x5 and the output's at anything, runs
    to a state holding the inputs' as they were and the output's at the body's stored value. -/
theorem sound_kernel (c : Dev nD) (E : Set ℕ) (i : grid0.Coords) (arg1 : Memref sig .tc .vmem S8192x10 .f32) (harg1 : arg1.IsWhole) (arg2 : Memref sig .tc .vmem S8192x4 .f32) (harg2 : arg2.IsWhole) (arg3 : Memref sig .tc .vmem S10x12 .f32) (harg3 : arg3.IsWhole) (arg4 : Memref sig .tc .vmem S1x12 .f32) (harg4 : arg4.IsWhole) (arg5 : Memref sig .tc .vmem S4x12 .f32) (harg5 : arg5.IsWhole) (arg6 : Memref sig .tc .vmem S1x12 .f32) (harg6 : arg6.IsWhole) (arg7 : Memref sig .tc .vmem S8192x4 .f32) (harg7 : arg7.IsWhole)
    (x0 : Vec F S8192x10 .f32) (x1 : Vec F S8192x4 .f32) (x2 : Vec F S10x12 .f32) (x3 : Vec F S1x12 .f32) (x4 : Vec F S4x12 .f32) (x5 : Vec F S1x12 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__gru_kernel i arg1 harg1 arg2 harg2 arg3 harg3 arg4 harg4 arg5 harg5 arg6 harg6 arg7 harg7) K := by
  simp only [cc0__gru_kernel_eq_skeleton]; unfold cc0__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- On core c: the arrays as the region finds them; after the body at point t each input buffer still at its
    block and the output buffer at the body's value of the six input blocks; nothing else kept, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation at a point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- At any point the input buffers hold their blocks, so the body's triple applies; the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution terminates, and every final state has the
    region's arrays at what the proof data gives and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs, and its fourteen arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.Kernel.Frame

end
-- ==== Proof.FrameKI.lean ====
/-
  The frame of this program, proved against the pipeline library's launch theorem: the program
  runs to the end on every weakly fair schedule, faults nowhere, and leaves its fourteen argument
  arrays as launched.

  The program is twelve host operations (transposes of the six weight matrices, the three matrices
  of each path laid side by side as one matrix of twelve columns, the three bias vectors of each path
  joined into one row), then one region over a grid of 512 points. At point t the region hands the
  body rows 8192·t … 8192·t + 8191 of x and of h, the four small arrays whole, and a staging buffer
  for the same rows of the result. The body reads its six inputs whole, computes, and stores the
  result's block whole; it keeps nothing from one point to the next. So after the body every input
  buffer holds what it held, the output buffer holds the body's one stored value, and the launch
  theorem gives the run. No host operation writes an argument array and the region writes only its
  result, which gives the frame.
-/
import proofs.«101321_j53386443489424_2_alg».proof.Proof.Gen.KernelIdeal.Launch
import proofs.«101321_j53386443489424_2_alg».proof.Proof.Gen.KernelIdeal.Skeleton
import proofs.«101321_j53386443489424_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- Core c's buffers when the region is entered: the launch memory after the twelve host operations. -/
abbrev V (c : Dev nD) (b : Ref sig .tc) : Buf (Elt F) ((c : Thread nD τ).loc b) :=
  StableHlo.after hostOps0 (fun b => m (c, b)) b

/-- No host operation leaves a buffer at contents of the machine's choosing. -/
theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame from a run to the launch theorem's post -/

/-- In any state the launch theorem's post holds of, the fourteen arguments are as launched: the two staged ones
    are read off the proof data's final arrays (an input window's array ends as it began), the twelve others are
    buffers the region does not touch; each is then as launched because no host operation writes it. -/
theorem kept_args (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  ⟨((h c).1 0).trans (((dats 0 c).arrAt_in 0 rfl _).trans ((hA c 0).trans (V_main_arg0 m c))),
    ((h c).1 1).trans (((dats 0 c).arrAt_in 1 rfl _).trans ((hA c 1).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c)⟩

/-- So a run to that post is the frame. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => kept_args m dats hA r h c) h

/-! ## What the body leaves in the output window's buffer -/

/-- The rectangles the body reads and stores through: each the whole of its buffer. -/
abbrev rX : Rect S8192x10 := Rect.unit (s := S8192x10) ![0, 0] S8192x10.size inb_S8192x10_S8192x10_0_0
abbrev rH : Rect S8192x4 := Rect.unit (s := S8192x4) ![0, 0] S8192x4.size inb_S8192x4_S8192x4_0_0
abbrev rWx : Rect S10x12 := Rect.unit (s := S10x12) ![0, 0] S10x12.size inb_S10x12_S10x12_0_0
abbrev rB : Rect S1x12 := Rect.unit (s := S1x12) ![0, 0] S1x12.size inb_S1x12_S1x12_0_0
abbrev rWh : Rect S4x12 := Rect.unit (s := S4x12) ![0, 0] S4x12.size inb_S4x12_S4x12_0_0
abbrev rOut : Rect S8192x4 := Rect.unit (s := S8192x4) ![0, 0] S8192x4.size inb_S8192x4_S8192x4_0_0

/-- The output buffer after the body, from the six input blocks: its one store, of the body's value. -/
def out0_6 (x0 : Vec F S8192x10 .f32) (x1 : Vec F S8192x4 .f32) (x2 : Vec F S10x12 .f32) (x3 : Vec F S1x12 .f32) (x4 : Vec F S4x12 .f32) (x5 : Vec F S1x12 .f32) : Vec F S8192x4 .f32 :=
  View.canon [⟨rOut, k0_pay1 (View.ld x0 rX) (View.ld x1 rH) (View.ld x2 rWx) (View.ld x3 rB) (View.ld x4 rWh) (View.ld x5 rB)⟩]

/-- The one store covers the buffer. -/
theorem cover0_6 (p0 : Vec F S8192x4 .f32) (y : S8192x4.Idx) :
    ∃ pc ∈ ([⟨rOut, p0⟩] : List (View.Piece (Elt F) S8192x4 .f32)), y ∈ pc.1.set :=
  View.cover_of_tiled [⟨rOut, p0⟩] S8192x4.size (by rfl) y

/-! ## The body's triple -/

set_option maxHeartbeats 1000000 in
/-- The body on whole staging buffers, the six inputs' at contents x0 … x5 and the output's at anything, runs
    to a state holding the inputs' as they were and the output's at the body's stored value. -/
theorem sound_kernel (c : Dev nD) (E : Set ℕ) (i : grid0.Coords) (arg1 : Memref sig .tc .vmem S8192x10 .f32) (harg1 : arg1.IsWhole) (arg2 : Memref sig .tc .vmem S8192x4 .f32) (harg2 : arg2.IsWhole) (arg3 : Memref sig .tc .vmem S10x12 .f32) (harg3 : arg3.IsWhole) (arg4 : Memref sig .tc .vmem S1x12 .f32) (harg4 : arg4.IsWhole) (arg5 : Memref sig .tc .vmem S4x12 .f32) (harg5 : arg5.IsWhole) (arg6 : Memref sig .tc .vmem S1x12 .f32) (harg6 : arg6.IsWhole) (arg7 : Memref sig .tc .vmem S8192x4 .f32) (harg7 : arg7.IsWhole)
    (x0 : Vec F S8192x10 .f32) (x1 : Vec F S8192x4 .f32) (x2 : Vec F S10x12 .f32) (x3 : Vec F S1x12 .f32) (x4 : Vec F S4x12 .f32) (x5 : Vec F S1x12 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__gru_kernel i arg1 harg1 arg2 harg2 arg3 harg3 arg4 harg4 arg5 harg5 arg6 harg6 arg7 harg7) K := by
  simp only [cc0__gru_kernel_eq_skeleton]; unfold cc0__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- On core c: the arrays as the region finds them; after the body at point t each input buffer still at its
    block and the output buffer at the body's value of the six input blocks; nothing else kept, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation at a point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- At any point the input buffers hold their blocks, so the body's triple applies; the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution terminates, and every final state has the
    region's arrays at what the proof data gives and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs, and its fourteen arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.KernelIdeal.Frame

end
-- ==== Proof.Blocks.lean ====
/-
  From blocks to the array. The region's grid has 512 points; at point t the windows of x, of h and of
  the result hold rows 8192·t … 8192·t + 8191 (block index (t, 0), block size 8192 rows), and the four
  small windows hold their arrays whole (block index (0, 0) at every point). So entry (p, q) of what
  point t writes back is entry (8192·t + p, q) of any whole-array function G that the body's value
  matches row by row; every row r lies in the block of point r / 8192, so the blocks cover the result
  and the result array ends as G.
-/
import proofs.«101321_j53386443489424_2_alg».proof.Proof.FrameKI
import Idealize.ShloMosaic.Lib.Pipeline.Value
import Idealize.ShloMosaic.Lib.ValueIdx

noncomputable section

namespace Cert.KernelIdeal.Blocks

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The block index of each window at each point: (t, 0) for the three row-blocked windows, (0, 0) for
    the four whole ones. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem lt_N (t : Fin cfg0.N) : t.val < 512 :=
  lt_of_lt_of_eq t.isLt (show cfg0.N = 512 from N_0)

/-- The row of the arrays that row p of point t's blocks is. -/
def rowOf (t : Fin cfg0.N) (p : Fin 8192) : Fin 4194304 :=
  ⟨t.val * 8192 + p.val, by have := lt_N t; have := p.isLt; omega⟩

/-! ## The input windows' blocks, entry by entry -/

theorem iblk0_apply (c : Dev nD) (t : Fin cfg0.N) (p : Fin 8192) (k : Fin 10) :
    iblk m c 0 t (ix2 p k) = V m c main_arg0 (ix2 (rowOf t p) k) := by
  obtain ⟨e0, e1, -⟩ := idx_facts t
  show V m c main_arg0 (((cfg0.win 0).blk t).view.emb (ix2 p k)) = _
  refine congrArg (V m c main_arg0) ?_
  funext a; apply Fin.ext
  match a with
  | ⟨0, _⟩ => show win0_0.index t (0 : Fin 2) * 8192 + 1 * p.val = t.val * 8192 + p.val; omega
  | ⟨1, _⟩ => show win0_0.index t (1 : Fin 2) * 10 + 1 * k.val = k.val; omega

theorem iblk1_apply (c : Dev nD) (t : Fin cfg0.N) (p : Fin 8192) (k : Fin 4) :
    iblk m c 1 t (ix2 p k) = V m c main_arg1 (ix2 (rowOf t p) k) := by
  obtain ⟨-, -, e0, e1, -⟩ := idx_facts t
  show V m c main_arg1 (((cfg0.win 1).blk t).view.emb (ix2 p k)) = _
  refine congrArg (V m c main_arg1) ?_
  funext a; apply Fin.ext
  match a with
  | ⟨0, _⟩ => show win0_1.index t (0 : Fin 2) * 8192 + 1 * p.val = t.val * 8192 + p.val; omega
  | ⟨1, _⟩ => show win0_1.index t (1 : Fin 2) * 4 + 1 * k.val = k.val; omega

theorem iblk2_apply (c : Dev nD) (t : Fin cfg0.N) (k : Fin 10) (j : Fin 12) :
    iblk m c 2 t (ix2 k j) = V m c main_v3 (ix2 k j) := by
  obtain ⟨-, -, -, -, e0, e1, -⟩ := idx_facts t
  show V m c main_v3 (((cfg0.win 2).blk t).view.emb (ix2 k j)) = _
  refine congrArg (V m c main_v3) ?_
  funext a; apply Fin.ext
  match a with
  | ⟨0, _⟩ => show win0_2.index t (0 : Fin 2) * 10 + 1 * k.val = k.val; omega
  | ⟨1, _⟩ => show win0_2.index t (1 : Fin 2) * 12 + 1 * j.val = j.val; omega

theorem iblk3_apply (c : Dev nD) (t : Fin cfg0.N) (k : Fin 1) (j : Fin 12) :
    iblk m c 3 t (ix2 k j) = V m c main_v9 (ix2 k j) := by
  obtain ⟨-, -, -, -, -, -, e0, e1, -⟩ := idx_facts t
  show V m c main_v9 (((cfg0.win 3).blk t).view.emb (ix2 k j)) = _
  refine congrArg (V m c main_v9) ?_
  funext a; apply Fin.ext
  match a with
  | ⟨0, _⟩ => show win0_3.index t (0 : Fin 2) * 1 + 1 * k.val = k.val; omega
  | ⟨1, _⟩ => show win0_3.index t (1 : Fin 2) * 12 + 1 * j.val = j.val; omega

theorem iblk4_apply (c : Dev nD) (t : Fin cfg0.N) (k : Fin 4) (j : Fin 12) :
    iblk m c 4 t (ix2 k j) = V m c main_v7 (ix2 k j) := by
  obtain ⟨-, -, -, -, -, -, -, -, e0, e1, -⟩ := idx_facts t
  show V m c main_v7 (((cfg0.win 4).blk t).view.emb (ix2 k j)) = _
  refine congrArg (V m c main_v7) ?_
  funext a; apply Fin.ext
  match a with
  | ⟨0, _⟩ => show win0_4.index t (0 : Fin 2) * 4 + 1 * k.val = k.val; omega
  | ⟨1, _⟩ => show win0_4.index t (1 : Fin 2) * 12 + 1 * j.val = j.val; omega

theorem iblk5_apply (c : Dev nD) (t : Fin cfg0.N) (k : Fin 1) (j : Fin 12) :
    iblk m c 5 t (ix2 k j) = V m c main_v11 (ix2 k j) := by
  obtain ⟨-, -, -, -, -, -, -, -, -, -, e0, e1, -⟩ := idx_facts t
  show V m c main_v11 (((cfg0.win 5).blk t).view.emb (ix2 k j)) = _
  refine congrArg (V m c main_v11) ?_
  funext a; apply Fin.ext
  match a with
  | ⟨0, _⟩ => show win0_5.index t (0 : Fin 2) * 1 + 1 * k.val = k.val; omega
  | ⟨1, _⟩ => show win0_5.index t (1 : Fin 2) * 12 + 1 * j.val = j.val; omega

/-! ## What a point writes back -/

/-- If the body's value on the blocks of point t, at (p, q), is G at (8192·t + p, q), then what point t writes
    back is block t of G. -/
theorem flushed6_eq (c : Dev nD) (G : S4194304x4.Idx → Elt F .f32)
    (hG : ∀ (t : Fin cfg0.N) (p : Fin 8192) (q : Fin 4),
      k0_pay1 (iblk m c 0 t) (iblk m c 1 t) (iblk m c 2 t) (iblk m c 3 t) (iblk m c 4 t) (iblk m c 5 t) (ix2 p q)
        = G (ix2 (rowOf t p) q))
    (t : Fin cfg0.N) :
    (dats m 0 c).flushed 6 t = ((cfg0.win 6).blk t).view.read (Elt F) G := by
  show (cfg0.win 6).cut (grid0.coords t) ((dats m 0 c).after 6 t) = _
  rw [after0_6]
  unfold out0_6
  rw [View.canon_unit_zero hz]
  simp only [View.ld_unit_zero (S := S8192x10) hz, View.ld_unit_zero (S := S8192x4) hz, View.ld_unit_zero (S := S10x12) hz,
    View.ld_unit_zero (S := S1x12) hz, View.ld_unit_zero (S := S4x12) hz]
  obtain ⟨-, -, -, -, -, -, -, -, -, -, -, -, e0, e1⟩ := idx_facts t
  funext j
  obtain ⟨p, q, rfl⟩ : ∃ (p : Fin 8192) (q : Fin 4), j = ix2 p q := ⟨j 0, j 1, eq_ix2 j⟩
  show k0_pay1 (iblk m c 0 t) (iblk m c 1 t) (iblk m c 2 t) (iblk m c 3 t) (iblk m c 4 t) (iblk m c 5 t) (ix2 p q)
    = G (((cfg0.win 6).blk t).view.emb (ix2 p q))
  refine (hG t p q).trans (congrArg G ?_)
  funext a; apply Fin.ext
  match a with
  | ⟨0, _⟩ => show t.val * 8192 + p.val = win0_6.index t (0 : Fin 2) * 8192 + 1 * p.val; omega
  | ⟨1, _⟩ => show q.val = win0_6.index t (1 : Fin 2) * 4 + 1 * q.val; omega

/-! ## The blocks cover the result -/

theorem mem_blk6 (t : Fin cfg0.N) (i : S4194304x4.Idx) :
    i ∈ ((cfg0.win 6).blk t).view.set ↔ ∀ a : Fin 2, win0_6.index t a * S8192x4.size a ≤ (i a).val ∧ (i a).val < win0_6.index t a * S8192x4.size a + S8192x4.size a := by
  show i ∈ ((View.whole main_v12).slice (win0_6.rect t)).set ↔ _
  rw [View.set_slice_whole, Rect.mem_set_unit]
  exact Iff.rfl

/-- Row r of the result is in the block of point r / 8192. -/
theorem cover6 (i : S4194304x4.Idx) :
    ∃ t : Fin cfg0.N, (cfg0.win 6).flush t = true ∧ i ∈ ((cfg0.win 6).blk t).view.set := by
  have hi0 : (i 0).val < 4194304 := (i 0).isLt
  have hi1 : (i 1).val < 4 := (i 1).isLt
  have hN : cfg0.N = 512 := N_0
  have ht : (i 0).val / 8192 < cfg0.N := by rw [hN]; omega
  obtain ⟨-, -, -, -, -, -, -, -, -, -, -, -, e0, e1⟩ := idx_facts ⟨(i 0).val / 8192, ht⟩
  refine ⟨⟨(i 0).val / 8192, ht⟩, flush0_6 _, ?_⟩
  rw [mem_blk6]
  intro a
  match a with
  | ⟨0, _⟩ =>
    show win0_6.index ⟨(i 0).val / 8192, ht⟩ (0 : Fin 2) * 8192 ≤ (i 0).val ∧ (i 0).val < win0_6.index ⟨(i 0).val / 8192, ht⟩ (0 : Fin 2) * 8192 + 8192
    rw [e0]
    show (i 0).val / 8192 * 8192 ≤ (i 0).val ∧ (i 0).val < (i 0).val / 8192 * 8192 + 8192
    omega
  | ⟨1, _⟩ =>
    show win0_6.index ⟨(i 0).val / 8192, ht⟩ (1 : Fin 2) * 4 ≤ (i 1).val ∧ (i 1).val < win0_6.index ⟨(i 0).val / 8192, ht⟩ (1 : Fin 2) * 4 + 4
    rw [e1]
    omega

/-! ## The result array, and the run -/

/-- The result array after the run is G. -/
theorem final6 (c : Dev nD) (G : S4194304x4.Idx → Elt F .f32)
    (hG : ∀ (t : Fin cfg0.N) (p : Fin 8192) (q : Fin 4),
      k0_pay1 (iblk m c 0 t) (iblk m c 1 t) (iblk m c 2 t) (iblk m c 3 t) (iblk m c 4 t) (iblk m c 5 t) (ix2 p q)
        = G (ix2 (rowOf t p) q)) :
    (dats m 0 c).arrAt 6 cfg0.N = G :=
  (dats m 0 c).arrAt_eq_of_cover 6 G (fun t _ => flushed6_eq m c G hG t) cover6

/-- After the run the result's buffer is the proof data's final array of the output window. -/
theorem post6 (r : PUnit × MemSt nD τ sig (Elt F)) (h : Pipeline.FramePost cfgs (dats m) 0 (V m) r) (c : Dev nD) :
    r.2.mem ((c.tc : Thread nD τ).loc main_v12) = (dats m 0 c).arrAt 6 cfg0.N :=
  (h c).1 6

/-- The run with the result named: the program terminates on every weakly fair schedule with the result at G
    and the fourteen arguments as launched. -/
theorem run_value (G : (c : Dev nD) → S4194304x4.Idx → Elt F .f32)
    (hG : ∀ (c : Dev nD) (t : Fin cfg0.N) (p : Fin 8192) (q : Fin 4),
      k0_pay1 (iblk m c 0 t) (iblk m c 1 t) (iblk m c 2 t) (iblk m c 3 t) (iblk m c 4 t) (iblk m c 5 t) (ix2 p q)
        = G c (ix2 (rowOf t p) q)) :
    θ_run defs (onTc (τ := τ) (main (F := F))) ⟨m, fun _ => 0, ρ⟩ (fun r => ∀ c : Dev nD,
      r.2.mem ((c.tc : Thread nD τ).loc main_v12) = G c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(post6 m r h c).trans (final6 m c (G c) (hG c)), kept_args m (dats m) (A_eq m) r h c⟩)
    (run_main m ρ)

end Cert.KernelIdeal.Blocks

end
-- ==== Proof.HostArrays.lean ====
/-
  What the host operations before the region leave in the four arrays the region stages whole: the three
  input-path weight matrices transposed and laid side by side as a 10 × 12 matrix, the three hidden-path
  ones as a 4 × 12 matrix, and the three bias vectors of each path joined into one row of twelve.
-/
import proofs.«101321_j53386443489424_2_alg».proof.Proof.FrameKI
import Idealize.ShloMosaic.Lib.StableHlo.Run

noncomputable section

namespace Cert.KernelIdeal.HostArrays

open Cert.KernelIdeal Cert.KernelIdeal.Gen Cert.KernelIdeal.Frame
open Idealize.ShloMosaic Idealize.ShloMosaic.TcCoe Idealize.SL.Sem Idealize.ShloMosaic.StableHlo

variable {F : FTy → Type} [FloatOps F]

/-- Three 4 × 10 matrices, each transposed, side by side. -/
def sideX (a b d : S4x10.Idx → Elt F .f32) : S10x12.Idx → Elt F .f32 :=
  concatenate S10x12 1 [⟨S10x4, transpose S10x4 [1, 0] a transposes_S4x10_S10x4_1_0⟩, ⟨S10x4, transpose S10x4 [1, 0] b transposes_S4x10_S10x4_1_0⟩, ⟨S10x4, transpose S10x4 [1, 0] d transposes_S4x10_S10x4_1_0⟩] concatenates_S10x4_S10x4_S10x4_S10x12_d1

/-- Three 4 × 4 matrices, each transposed, side by side. -/
def sideH (a b d : S4x4.Idx → Elt F .f32) : S4x12.Idx → Elt F .f32 :=
  concatenate S4x12 1 [⟨S4x4, transpose S4x4 [1, 0] a transposes_S4x4_S4x4_1_0⟩, ⟨S4x4, transpose S4x4 [1, 0] b transposes_S4x4_S4x4_1_0⟩, ⟨S4x4, transpose S4x4 [1, 0] d transposes_S4x4_S4x4_1_0⟩] concatenates_S4x4_S4x4_S4x4_S4x12_d1

/-- Three vectors of four joined into one row of twelve. -/
def rowB (a b d : S4.Idx → Elt F .f32) : S1x12.Idx → Elt F .f32 :=
  shapeCast S1x12 (concatenate S12 0 [⟨S4, a⟩, ⟨S4, b⟩, ⟨S4, d⟩] concatenates_S4_S4_S4_S12_d0) shapeCasts_S12_S1x12

variable (m : (ℓ : Loc nD τ sig) → Buf (Elt F) ℓ)

theorem V_main_v3 (c : Dev nD) :
    (V m c main_v3 : S10x12.Idx → Elt F .f32)
      = sideX (m ((c : Thread nD τ).loc main_arg4)) (m ((c : Thread nD τ).loc main_arg8)) (m ((c : Thread nD τ).loc main_arg10)) := by
  unfold sideX
  dsimp only [V, hostOps0]; after_results; rfl

theorem V_main_v7 (c : Dev nD) :
    (V m c main_v7 : S4x12.Idx → Elt F .f32)
      = sideH (m ((c : Thread nD τ).loc main_arg2)) (m ((c : Thread nD τ).loc main_arg6)) (m ((c : Thread nD τ).loc main_arg12)) := by
  unfold sideH
  dsimp only [V, hostOps0]; after_results; rfl

theorem V_main_v9 (c : Dev nD) :
    (V m c main_v9 : S1x12.Idx → Elt F .f32)
      = rowB (m ((c : Thread nD τ).loc main_arg5)) (m ((c : Thread nD τ).loc main_arg9)) (m ((c : Thread nD τ).loc main_arg11)) := by
  unfold rowB
  dsimp only [V, hostOps0]; after_results; rfl

theorem V_main_v11 (c : Dev nD) :
    (V m c main_v11 : S1x12.Idx → Elt F .f32)
      = rowB (m ((c : Thread nD τ).loc main_arg3)) (m ((c : Thread nD τ).loc main_arg7)) (m ((c : Thread nD τ).loc main_arg13)) := by
  unfold rowB
  dsimp only [V, hostOps0]; after_results; rfl

end Cert.KernelIdeal.HostArrays

end
-- ==== Proof.Spec.lean ====
/-
  The mathematics both programs compute: one step of a gated recurrent unit, row by row.

  For a row r the inputs are x_r ∈ ℝ̄^10 and h_r ∈ ℝ̄^4 (ℝ̄ the extended reals) and, for each hidden
  coordinate j < 4, with ⟨a, w⟩ = Σ_k a_k · w_k,

      z_j = σ( ⟨x_r, Wzx_j⟩ + bzx_j + ⟨h_r, Wzh_j⟩ + bzh_j )
      r_j = σ( ⟨x_r, Wrx_j⟩ + brx_j + ⟨h_r, Wrh_j⟩ + brh_j )
      n_j = tanh( r_j · (⟨h_r, Wnh_j⟩ + bnh_j) + ⟨x_r, Wnx_j⟩ + bnx_j )
      out_j = (1 − z_j) · n_j + z_j · h_{r,j},          σ(v) = 1 / (1 + e^(−v)).

  The two programs differ only in how the four summands of each pre-activation are grouped and
  ordered, and in whether the three weight matrices of a path are kept apart or laid side by side as
  one matrix with twelve columns. Addition on the extended reals is commutative and associative
  with no finiteness needed, so the groupings agree everywhere (cellRef_eq_cell), and a column of
  the twelve-column matrix is a row of the matrix it came from (cellFused_eq_cell).
-/
import Idealize.ShloMosaic.PureOps.Ideal
import Idealize.ShloMosaic.PureOps.Ideal.Laws
import Idealize.ShloMosaic.Lib.ValueIdx

noncomputable section

namespace Cert.GruSpec

open Idealize.ShloMosaic Idealize.ShloMosaic.ValueIdx

/-- The number one, as the word both programs write for it. -/
def one : EReal := Ideal.ofBits .f32 0x3F800000#32

/-- That word denotes the real number 1. -/
theorem one_eq : one = 1 := by
  unfold one
  simp [Ideal.ofBits, Ideal.ieee]
  first
    | (rw [← EReal.coe_mul]; norm_num)
    | (norm_cast; norm_num)
    | (exact_mod_cast (by norm_num : (8388608 : ℝ) * (2 ^ 23)⁻¹ = 1))

/-- The logistic function spelt as a quotient: 1 / (1 + e^(−v)). -/
def sigm (v : EReal) : EReal := Ideal.div one (one + Ideal.exp (-v))

/-- The quotient spelling is the logistic function. -/
theorem sigm_eq_logistic (v : EReal) : sigm v = Ideal.logistic v := by
  unfold sigm Ideal.logistic
  rw [one_eq]

/-- ⟨a, w⟩ = Σ_k a_k · w_k. -/
def dot {n : Nat} (a w : Fin n → EReal) : EReal := ∑ k : Fin n, a k * w k

/-- Coordinate j of the cell's output for one row, the bias of each path added to its own product
    before the two paths are added. -/
def cell (xr : Fin 10 → EReal) (hr : Fin 4 → EReal)
    (Wzh : Fin 4 → Fin 4 → EReal) (bzh : Fin 4 → EReal) (Wzx : Fin 4 → Fin 10 → EReal) (bzx : Fin 4 → EReal)
    (Wrh : Fin 4 → Fin 4 → EReal) (brh : Fin 4 → EReal) (Wrx : Fin 4 → Fin 10 → EReal) (brx : Fin 4 → EReal)
    (Wnx : Fin 4 → Fin 10 → EReal) (bnx : Fin 4 → EReal) (Wnh : Fin 4 → Fin 4 → EReal) (bnh : Fin 4 → EReal)
    (j : Fin 4) : EReal :=
  (one - sigm ((dot xr (Wzx j) + bzx j) + (dot hr (Wzh j) + bzh j)))
      * Ideal.tanh (sigm ((dot xr (Wrx j) + brx j) + (dot hr (Wrh j) + brh j)) * (dot hr (Wnh j) + bnh j)
          + (dot xr (Wnx j) + bnx j))
    + sigm ((dot xr (Wzx j) + bzx j) + (dot hr (Wzh j) + bzh j)) * hr j

/-- The same coordinate with the summands taken in the order hidden product, hidden bias, input
    product, input bias, added left to right. -/
def cellRef (xr : Fin 10 → EReal) (hr : Fin 4 → EReal)
    (Wzh : Fin 4 → Fin 4 → EReal) (bzh : Fin 4 → EReal) (Wzx : Fin 4 → Fin 10 → EReal) (bzx : Fin 4 → EReal)
    (Wrh : Fin 4 → Fin 4 → EReal) (brh : Fin 4 → EReal) (Wrx : Fin 4 → Fin 10 → EReal) (brx : Fin 4 → EReal)
    (Wnx : Fin 4 → Fin 10 → EReal) (bnx : Fin 4 → EReal) (Wnh : Fin 4 → Fin 4 → EReal) (bnh : Fin 4 → EReal)
    (j : Fin 4) : EReal :=
  (one - sigm (((dot hr (Wzh j) + bzh j) + dot xr (Wzx j)) + bzx j))
      * Ideal.tanh ((sigm (((dot hr (Wrh j) + brh j) + dot xr (Wrx j)) + brx j) * (dot hr (Wnh j) + bnh j)
          + dot xr (Wnx j)) + bnx j)
    + sigm (((dot hr (Wzh j) + bzh j) + dot xr (Wzx j)) + bzx j) * hr j

/-- Four summands grouped two and two, or added one after the other starting from the second pair. -/
theorem regroup (a b c d : EReal) : ((c + d) + a) + b = (a + b) + (c + d) := by
  rw [add_assoc, add_comm]

/-- The two groupings give one cell: only commutativity and associativity of addition are used. -/
theorem cellRef_eq_cell (xr : Fin 10 → EReal) (hr : Fin 4 → EReal)
    (Wzh : Fin 4 → Fin 4 → EReal) (bzh : Fin 4 → EReal) (Wzx : Fin 4 → Fin 10 → EReal) (bzx : Fin 4 → EReal)
    (Wrh : Fin 4 → Fin 4 → EReal) (brh : Fin 4 → EReal) (Wrx : Fin 4 → Fin 10 → EReal) (brx : Fin 4 → EReal)
    (Wnx : Fin 4 → Fin 10 → EReal) (bnx : Fin 4 → EReal) (Wnh : Fin 4 → Fin 4 → EReal) (bnh : Fin 4 → EReal)
    (j : Fin 4) :
    cellRef xr hr Wzh bzh Wzx bzx Wrh brh Wrx brx Wnx bnx Wnh bnh j
      = cell xr hr Wzh bzh Wzx bzx Wrh brh Wrx brx Wnx bnx Wnh bnh j := by
  unfold cellRef cell
  rw [regroup, regroup, add_assoc (sigm _ * _) (dot xr (Wnx j)) (bnx j)]

/-- Column j, j + 4 and j + 8 of a twelve-column matrix: where the update gate's, the reset gate's and
    the candidate's weights sit when the three are laid side by side. -/
def colZ (j : Fin 4) : Fin 12 := ⟨j.val, by omega⟩
def colR (j : Fin 4) : Fin 12 := ⟨j.val + 4, by omega⟩
def colN (j : Fin 4) : Fin 12 := ⟨j.val + 8, by omega⟩

/-- The cell computed from the side-by-side matrices: both products with all twelve columns first,
    then the columns picked. -/
def cellFused (xr : Fin 10 → EReal) (hr : Fin 4 → EReal)
    (Wx : Fin 10 → Fin 12 → EReal) (bx : Fin 12 → EReal) (Wh : Fin 4 → Fin 12 → EReal) (bh : Fin 12 → EReal)
    (j : Fin 4) : EReal :=
  (one - Ideal.logistic (((∑ k : Fin 10, xr k * Wx k (colZ j)) + bx (colZ j)) + ((∑ k : Fin 4, hr k * Wh k (colZ j)) + bh (colZ j))))
      * Ideal.tanh (Ideal.logistic (((∑ k : Fin 10, xr k * Wx k (colR j)) + bx (colR j)) + ((∑ k : Fin 4, hr k * Wh k (colR j)) + bh (colR j)))
            * ((∑ k : Fin 4, hr k * Wh k (colN j)) + bh (colN j))
          + ((∑ k : Fin 10, xr k * Wx k (colN j)) + bx (colN j)))
    + Ideal.logistic (((∑ k : Fin 10, xr k * Wx k (colZ j)) + bx (colZ j)) + ((∑ k : Fin 4, hr k * Wh k (colZ j)) + bh (colZ j))) * hr j

/-- When each column of the side-by-side matrices is the row of the matrix it came from, the fused cell
    is the cell. -/
theorem cellFused_eq_cell (xr : Fin 10 → EReal) (hr : Fin 4 → EReal)
    (Wx : Fin 10 → Fin 12 → EReal) (bx : Fin 12 → EReal) (Wh : Fin 4 → Fin 12 → EReal) (bh : Fin 12 → EReal)
    (Wzh : Fin 4 → Fin 4 → EReal) (bzh : Fin 4 → EReal) (Wzx : Fin 4 → Fin 10 → EReal) (bzx : Fin 4 → EReal)
    (Wrh : Fin 4 → Fin 4 → EReal) (brh : Fin 4 → EReal) (Wrx : Fin 4 → Fin 10 → EReal) (brx : Fin 4 → EReal)
    (Wnx : Fin 4 → Fin 10 → EReal) (bnx : Fin 4 → EReal) (Wnh : Fin 4 → Fin 4 → EReal) (bnh : Fin 4 → EReal)
    (j : Fin 4)
    (hxz : ∀ k, Wx k (colZ j) = Wzx j k) (hxr : ∀ k, Wx k (colR j) = Wrx j k) (hxn : ∀ k, Wx k (colN j) = Wnx j k)
    (hbxz : bx (colZ j) = bzx j) (hbxr : bx (colR j) = brx j) (hbxn : bx (colN j) = bnx j)
    (hhz : ∀ k, Wh k (colZ j) = Wzh j k) (hhr : ∀ k, Wh k (colR j) = Wrh j k) (hhn : ∀ k, Wh k (colN j) = Wnh j k)
    (hbhz : bh (colZ j) = bzh j) (hbhr : bh (colR j) = brh j) (hbhn : bh (colN j) = bnh j) :
    cellFused xr hr Wx bx Wh bh j = cell xr hr Wzh bzh Wzx bzx Wrh brh Wrx brx Wnx bnx Wnh bnh j := by
  unfold cellFused cell dot
  simp only [hxz, hxr, hxn, hbxz, hbxr, hbxn, hhz, hhr, hhn, hbhz, hbhr, hbhn, sigm_eq_logistic]

/-! ## The whole array -/

abbrev SBX : Shape := ⟨2, ![4194304, 10]⟩
abbrev SBH : Shape := ⟨2, ![4194304, 4]⟩
abbrev SHH : Shape := ⟨2, ![4, 4]⟩
abbrev SHX : Shape := ⟨2, ![4, 10]⟩
abbrev SH : Shape := ⟨1, ![4]⟩

/-- A matrix given by index as a function of its two coordinates, and a vector of its one. -/
def mat {a b : Nat} (W : (⟨2, ![a, b]⟩ : Shape).Idx → EReal) (p : Fin a) (q : Fin b) : EReal := W (ix2 p q)
def vec {a : Nat} (v : (⟨1, ![a]⟩ : Shape).Idx → EReal) (p : Fin a) : EReal := v (ix1 p)

/-- The cell applied to every row: entry (r, j) of the result is coordinate j of the cell on row r of
    x and of h. The arguments come in the programs' order. -/
def gru (x : SBX.Idx → EReal) (h : SBH.Idx → EReal)
    (Wzh : SHH.Idx → EReal) (bzh : SH.Idx → EReal) (Wzx : SHX.Idx → EReal) (bzx : SH.Idx → EReal)
    (Wrh : SHH.Idx → EReal) (brh : SH.Idx → EReal) (Wrx : SHX.Idx → EReal) (brx : SH.Idx → EReal)
    (Wnx : SHX.Idx → EReal) (bnx : SH.Idx → EReal) (Wnh : SHH.Idx → EReal) (bnh : SH.Idx → EReal) :
    SBH.Idx → EReal := fun i =>
  cell (mat x (i 0)) (mat h (i 0)) (mat Wzh) (vec bzh) (mat Wzx) (vec bzx) (mat Wrh) (vec brh) (mat Wrx) (vec brx)
    (mat Wnx) (vec bnx) (mat Wnh) (vec bnh) (i 1)

/-- The result at row p, coordinate q. -/
theorem gru_apply (x : SBX.Idx → EReal) (h : SBH.Idx → EReal)
    (Wzh : SHH.Idx → EReal) (bzh : SH.Idx → EReal) (Wzx : SHX.Idx → EReal) (bzx : SH.Idx → EReal)
    (Wrh : SHH.Idx → EReal) (brh : SH.Idx → EReal) (Wrx : SHX.Idx → EReal) (brx : SH.Idx → EReal)
    (Wnx : SHX.Idx → EReal) (bnx : SH.Idx → EReal) (Wnh : SHH.Idx → EReal) (bnh : SH.Idx → EReal)
    (p : Fin 4194304) (q : Fin 4) :
    gru x h Wzh bzh Wzx bzx Wrh brh Wrx brx Wnx bnx Wnh bnh (ix2 p q)
      = cell (mat x p) (mat h p) (mat Wzh) (vec bzh) (mat Wzx) (vec bzx) (mat Wrh) (vec brh) (mat Wrx) (vec brx)
          (mat Wnx) (vec bnx) (mat Wnh) (vec bnh) q := rfl

end Cert.GruSpec

end
-- ==== Proof.PayValue.lean ====
/-
  The value the kernel body stores, read at one index at the exact extended-real instance.

  The body forms, for a block of 8192 rows, the two twelve-column arrays
      X = x · Wx + bx   (input path),      H = h · Wh + bh   (hidden path),
  each a matrix product into a zero accumulator plus a bias row repeated down the rows, and from them
      z = σ(columns 0..3 of X + H),   r = σ(columns 4..7 of X + H),
      n = tanh(r · columns 8..11 of H + columns 8..11 of X),   out = (1 − z) · n + z · h.
  Read at row p and coordinate q: a product at (p, c) is Σ_k x(p, k) · W(k, c); a slice at column offset o
  read at (p, q) is its operand at (p, q + o), and a slice of a slice adds the offsets; every other operation
  acts entry by entry. So the stored value at (p, q) is the specification's fused cell of row p with columns
  q, q + 4 and q + 8.
-/
import proofs.«101321_j53386443489424_2_alg».proof.Proof.Gen.KernelIdeal.Skeleton
import proofs.«101321_j53386443489424_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx

theorem mmx_lhs0 (i : S8192x12.Idx) (r : dot_S8192x10_S10x12_S8192x12_1_0_0_1_n_n.contr.Idx) :
    (dot_S8192x10_S10x12_S8192x12_1_0_0_1_n_n.lhsIdx i r 0).val = (i 0).val := by
  unfold DotDims.lhsIdx
  rw [dif_neg (show ¬(0 : Fin S8192x10.rank) ∈ dot_S8192x10_S10x12_S8192x12_1_0_0_1_n_n.lhsBatch by decide),
    dif_pos (show (0 : Fin S8192x10.rank) ∈ dot_S8192x10_S10x12_S8192x12_1_0_0_1_n_n.lhsNonContracting by decide)]
  rfl
theorem mmx_lhs1 (i : S8192x12.Idx) (r : dot_S8192x10_S10x12_S8192x12_1_0_0_1_n_n.contr.Idx) :
    (dot_S8192x10_S10x12_S8192x12_1_0_0_1_n_n.lhsIdx i r 1).val = (r ⟨0, by decide⟩).val :=
  dot_S8192x10_S10x12_S8192x12_1_0_0_1_n_n.lhsIdx_val_of_single rfl i r
theorem mmx_rhs0 (i : S8192x12.Idx) (r : dot_S8192x10_S10x12_S8192x12_1_0_0_1_n_n.contr.Idx) :
    (dot_S8192x10_S10x12_S8192x12_1_0_0_1_n_n.rhsIdx i r 0).val = (r ⟨0, by decide⟩).val :=
  dot_S8192x10_S10x12_S8192x12_1_0_0_1_n_n.rhsIdx_val_of_single rfl i r
theorem mmx_rhs1 (i : S8192x12.Idx) (r : dot_S8192x10_S10x12_S8192x12_1_0_0_1_n_n.contr.Idx) :
    (dot_S8192x10_S10x12_S8192x12_1_0_0_1_n_n.rhsIdx i r 1).val = (i 1).val := by
  unfold DotDims.rhsIdx
  rw [dif_neg (show ¬(1 : Fin S10x12.rank) ∈ dot_S8192x10_S10x12_S8192x12_1_0_0_1_n_n.rhsBatch by decide),
    dif_pos (show (1 : Fin S10x12.rank) ∈ dot_S8192x10_S10x12_S8192x12_1_0_0_1_n_n.rhsNonContracting by decide)]
  rfl

/-- The product of a block of rows with the ten-row matrix into a zero accumulator, read at row p and column c:
    the sum over k of the row's entry k times the matrix's entry (k, c). -/
theorem mmx_apply (x : FVec Ideal S8192x10 .f32) (w : FVec Ideal S10x12 .f32) (p : Fin 8192) (c : Fin 12) :
    matmul dot_S8192x10_S10x12_S8192x12_1_0_0_1_n_n none x w (constant S8192x12 .f32 0x00000000#32) (ix2 p c)
      = ∑ k : Fin 10, x (ix2 p k) * w (ix2 k c) := by
  simp only [matmul]
  rw [Ideal.matmul_constant_zero_apply,
    ← Equiv.sum_comp (contrEquiv1 dot_S8192x10_S10x12_S8192x12_1_0_0_1_n_n 10 rfl rfl).symm]
  refine Finset.sum_congr rfl fun k _ => ?_
  have hk := contrEquiv1_symm_val dot_S8192x10_S10x12_S8192x12_1_0_0_1_n_n 10 rfl rfl k
  have el : dot_S8192x10_S10x12_S8192x12_1_0_0_1_n_n.lhsIdx (ix2 p c) ((contrEquiv1 dot_S8192x10_S10x12_S8192x12_1_0_0_1_n_n 10 rfl rfl).symm k) = ix2 p k :=
    funext fun a => Fin.ext (by
      match a with
      | ⟨0, _⟩ => exact mmx_lhs0 _ _
      | ⟨1, _⟩ => exact (mmx_lhs1 _ _).trans hk)
  have er : dot_S8192x10_S10x12_S8192x12_1_0_0_1_n_n.rhsIdx (ix2 p c) ((contrEquiv1 dot_S8192x10_S10x12_S8192x12_1_0_0_1_n_n 10 rfl rfl).symm k) = ix2 k c :=
    funext fun a => Fin.ext (by
      match a with
      | ⟨0, _⟩ => exact (mmx_rhs0 _ _).trans hk
      | ⟨1, _⟩ => exact mmx_rhs1 _ _)
  rw [el, er]

theorem mmh_lhs0 (i : S8192x12.Idx) (r : dot_S8192x4_S4x12_S8192x12_1_0_0_1_n_n.contr.Idx) :
    (dot_S8192x4_S4x12_S8192x12_1_0_0_1_n_n.lhsIdx i r 0).val = (i 0).val := by
  unfold DotDims.lhsIdx
  rw [dif_neg (show ¬(0 : Fin S8192x4.rank) ∈ dot_S8192x4_S4x12_S8192x12_1_0_0_1_n_n.lhsBatch by decide),
    dif_pos (show (0 : Fin S8192x4.rank) ∈ dot_S8192x4_S4x12_S8192x12_1_0_0_1_n_n.lhsNonContracting by decide)]
  rfl
theorem mmh_lhs1 (i : S8192x12.Idx) (r : dot_S8192x4_S4x12_S8192x12_1_0_0_1_n_n.contr.Idx) :
    (dot_S8192x4_S4x12_S8192x12_1_0_0_1_n_n.lhsIdx i r 1).val = (r ⟨0, by decide⟩).val :=
  dot_S8192x4_S4x12_S8192x12_1_0_0_1_n_n.lhsIdx_val_of_single rfl i r
theorem mmh_rhs0 (i : S8192x12.Idx) (r : dot_S8192x4_S4x12_S8192x12_1_0_0_1_n_n.contr.Idx) :
    (dot_S8192x4_S4x12_S8192x12_1_0_0_1_n_n.rhsIdx i r 0).val = (r ⟨0, by decide⟩).val :=
  dot_S8192x4_S4x12_S8192x12_1_0_0_1_n_n.rhsIdx_val_of_single rfl i r
theorem mmh_rhs1 (i : S8192x12.Idx) (r : dot_S8192x4_S4x12_S8192x12_1_0_0_1_n_n.contr.Idx) :
    (dot_S8192x4_S4x12_S8192x12_1_0_0_1_n_n.rhsIdx i r 1).val = (i 1).val := by
  unfold DotDims.rhsIdx
  rw [dif_neg (show ¬(1 : Fin S4x12.rank) ∈ dot_S8192x4_S4x12_S8192x12_1_0_0_1_n_n.rhsBatch by decide),
    dif_pos (show (1 : Fin S4x12.rank) ∈ dot_S8192x4_S4x12_S8192x12_1_0_0_1_n_n.rhsNonContracting by decide)]
  rfl

/-- The same for the four-row matrix. -/
theorem mmh_apply (x : FVec Ideal S8192x4 .f32) (w : FVec Ideal S4x12 .f32) (p : Fin 8192) (c : Fin 12) :
    matmul dot_S8192x4_S4x12_S8192x12_1_0_0_1_n_n none x w (constant S8192x12 .f32 0x00000000#32) (ix2 p c)
      = ∑ k : Fin 4, x (ix2 p k) * w (ix2 k c) := by
  simp only [matmul]
  rw [Ideal.matmul_constant_zero_apply,
    ← Equiv.sum_comp (contrEquiv1 dot_S8192x4_S4x12_S8192x12_1_0_0_1_n_n 4 rfl rfl).symm]
  refine Finset.sum_congr rfl fun k _ => ?_
  have hk := contrEquiv1_symm_val dot_S8192x4_S4x12_S8192x12_1_0_0_1_n_n 4 rfl rfl k
  have el : dot_S8192x4_S4x12_S8192x12_1_0_0_1_n_n.lhsIdx (ix2 p c) ((contrEquiv1 dot_S8192x4_S4x12_S8192x12_1_0_0_1_n_n 4 rfl rfl).symm k) = ix2 p k :=
    funext fun a => Fin.ext (by
      match a with
      | ⟨0, _⟩ => exact mmh_lhs0 _ _
      | ⟨1, _⟩ => exact (mmh_lhs1 _ _).trans hk)
  have er : dot_S8192x4_S4x12_S8192x12_1_0_0_1_n_n.rhsIdx (ix2 p c) ((contrEquiv1 dot_S8192x4_S4x12_S8192x12_1_0_0_1_n_n 4 rfl rfl).symm k) = ix2 k c :=
    funext fun a => Fin.ext (by
      match a with
      | ⟨0, _⟩ => exact (mmh_rhs0 _ _).trans hk
      | ⟨1, _⟩ => exact mmh_rhs1 _ _)
  rw [el, er]

/-! ## The two pre-activation arrays: a product plus a broadcast bias row -/

/-- Twelve pre-activation columns of one path: the rows times the path's matrix, plus the path's bias row
    repeated down the rows. -/
def pre12x (x : FVec Ideal S8192x10 .f32) (w : FVec Ideal S10x12 .f32) (b : FVec Ideal S1x12 .f32) :
    FVec Ideal S8192x12 .f32 :=
  addf (matmul dot_S8192x10_S10x12_S8192x12_1_0_0_1_n_n none x (shapeCast S10x12 w shapeCasts_S10x12_S10x12)
      (constant S8192x12 .f32 0x00000000#32))
    (broadcastTo S8192x12 (shapeCast S1x12 b shapeCasts_S1x12_S1x12) broadcasts_S1x12_S8192x12)

def pre12h (x : FVec Ideal S8192x4 .f32) (w : FVec Ideal S4x12 .f32) (b : FVec Ideal S1x12 .f32) :
    FVec Ideal S8192x12 .f32 :=
  addf (matmul dot_S8192x4_S4x12_S8192x12_1_0_0_1_n_n none x (shapeCast S4x12 w shapeCasts_S4x12_S4x12)
      (constant S8192x12 .f32 0x00000000#32))
    (broadcastTo S8192x12 (shapeCast S1x12 b shapeCasts_S1x12_S1x12) broadcasts_S1x12_S8192x12)

/-- Entry (p, c) of the input path's pre-activations: ⟨x_p, column c of the matrix⟩ + b_c. -/
theorem pre12x_apply (x : FVec Ideal S8192x10 .f32) (w : FVec Ideal S10x12 .f32) (b : FVec Ideal S1x12 .f32)
    (p : Fin 8192) (c : Fin 12) :
    pre12x x w b (ix2 p c) = (∑ k : Fin 10, x (ix2 p k) * w (ix2 k c)) + b (ix2 (0 : Fin 1) c) := by
  unfold pre12x
  rw [shapeCast_self, shapeCast_self, addf_apply, mmx_apply, broadcastTo_1b_ab_apply]

/-- Entry (p, c) of the hidden path's pre-activations: ⟨h_p, column c of the matrix⟩ + b_c. -/
theorem pre12h_apply (x : FVec Ideal S8192x4 .f32) (w : FVec Ideal S4x12 .f32) (b : FVec Ideal S1x12 .f32)
    (p : Fin 8192) (c : Fin 12) :
    pre12h x w b (ix2 p c) = (∑ k : Fin 4, x (ix2 p k) * w (ix2 k c)) + b (ix2 (0 : Fin 1) c) := by
  unfold pre12h
  rw [shapeCast_self, shapeCast_self, addf_apply, mmh_apply, broadcastTo_1b_ab_apply]

/-! ## Columns picked out of the pre-activations -/

/-- The first eight columns of the two paths, added: the update gate's and the reset gate's pre-activations. -/
def sum8 (X H : FVec Ideal S8192x12 .f32) : FVec Ideal S8192x8 .f32 :=
  addf (extractStridedSlice S8192x8 ![0, 0] X slices_S8192x12_o0_0_S8192x8)
    (extractStridedSlice S8192x8 ![0, 0] H slices_S8192x12_o0_0_S8192x8)

/-- Column c < 8 of that sum is column c of each path's twelve. -/
theorem sum8_apply (X H : FVec Ideal S8192x12 .f32) (p : Fin 8192) (c : Fin 8) (c' : Fin 12) (hc : c'.val = c.val) :
    sum8 X H (ix2 p c) = X (ix2 p c') + H (ix2 p c') := by
  unfold sum8
  rw [addf_apply]
  exact congrArg₂ (· + ·)
    (slice2_axis1_apply 0 X slices_S8192x12_o0_0_S8192x8 p c c' (by rw [hc, Nat.zero_add]))
    (slice2_axis1_apply 0 H slices_S8192x12_o0_0_S8192x8 p c c' (by rw [hc, Nat.zero_add]))

/-- Columns 0..3 of the eight: the update gate's column q of the twelve. -/
theorem sum8_colZ (X H : FVec Ideal S8192x12 .f32) (p : Fin 8192) (q : Fin 4) :
    extractStridedSlice S8192x4 ![0, 0] (sum8 X H) slices_S8192x8_o0_0_S8192x4 (ix2 p q)
      = X (ix2 p (Cert.GruSpec.colZ q)) + H (ix2 p (Cert.GruSpec.colZ q)) :=
  (slice2_axis1_apply 0 (sum8 X H) slices_S8192x8_o0_0_S8192x4 p q (⟨q.val, by omega⟩ : Fin 8) (Nat.zero_add _).symm).trans
    (sum8_apply X H p _ (Cert.GruSpec.colZ q) rfl)

/-- Columns 4..7 of the eight: the reset gate's column q + 4 of the twelve. -/
theorem sum8_colR (X H : FVec Ideal S8192x12 .f32) (p : Fin 8192) (q : Fin 4) :
    extractStridedSlice S8192x4 ![0, 4] (sum8 X H) slices_S8192x8_o0_4_S8192x4 (ix2 p q)
      = X (ix2 p (Cert.GruSpec.colR q)) + H (ix2 p (Cert.GruSpec.colR q)) :=
  (slice2_axis1_apply 4 (sum8 X H) slices_S8192x8_o0_4_S8192x4 p q (⟨q.val + 4, by omega⟩ : Fin 8) (Nat.add_comm _ _)).trans
    (sum8_apply X H p _ (Cert.GruSpec.colR q) rfl)

/-- Columns 8..11 of a path's twelve: the candidate's column q + 8. -/
theorem col8_colN (Y : FVec Ideal S8192x12 .f32) (p : Fin 8192) (q : Fin 4) :
    extractStridedSlice S8192x4 ![0, 8] Y slices_S8192x12_o0_8_S8192x4 (ix2 p q) = Y (ix2 p (Cert.GruSpec.colN q)) :=
  slice2_axis1_apply 8 Y slices_S8192x12_o0_8_S8192x4 p q (Cert.GruSpec.colN q) (Nat.add_comm _ _)

/-! ## The gates -/

/-- What the body does with the two pre-activation arrays X (input path) and H (hidden path) and the hidden
    rows h: z = σ(cols 0..3 of X + H), r = σ(cols 4..7 of X + H), n = tanh(r · cols 8..11 of H + cols 8..11 of X),
    result (1 − z) · n + z · h. -/
def gates (X H : FVec Ideal S8192x12 .f32) (h : FVec Ideal S8192x4 .f32) : FVec Ideal S8192x4 .f32 :=
  addf
    (mulf
      (subf (broadcast S8192x4 (Scalar.ofBits (F := Ideal) .f32 0x3F800000#32))
        (logistic (extractStridedSlice S8192x4 ![0, 0] (sum8 X H) slices_S8192x8_o0_0_S8192x4)))
      (tanh
        (addf
          (mulf (logistic (extractStridedSlice S8192x4 ![0, 4] (sum8 X H) slices_S8192x8_o0_4_S8192x4))
            (extractStridedSlice S8192x4 ![0, 8] H slices_S8192x12_o0_8_S8192x4))
          (extractStridedSlice S8192x4 ![0, 8] X slices_S8192x12_o0_8_S8192x4))))
    (mulf (logistic (extractStridedSlice S8192x4 ![0, 0] (sum8 X H) slices_S8192x8_o0_0_S8192x4)) h)

/-- The gates at row p, coordinate q, in terms of the pre-activations' columns q, q + 4 and q + 8. -/
theorem gates_apply (X H : FVec Ideal S8192x12 .f32) (h : FVec Ideal S8192x4 .f32) (p : Fin 8192) (q : Fin 4) :
    gates X H h (ix2 p q)
      = (Cert.GruSpec.one
            - Ideal.logistic (X (ix2 p (Cert.GruSpec.colZ q)) + H (ix2 p (Cert.GruSpec.colZ q))))
          * Ideal.tanh
              (Ideal.logistic (X (ix2 p (Cert.GruSpec.colR q)) + H (ix2 p (Cert.GruSpec.colR q)))
                  * H (ix2 p (Cert.GruSpec.colN q))
                + X (ix2 p (Cert.GruSpec.colN q)))
        + Ideal.logistic (X (ix2 p (Cert.GruSpec.colZ q)) + H (ix2 p (Cert.GruSpec.colZ q))) * h (ix2 p q) := by
  rw [← sum8_colZ X H p q, ← sum8_colR X H p q, ← col8_colN X p q, ← col8_colN H p q]
  rfl

/-! ## The stored value -/

/-- The body's stored value is the gates of the two paths' pre-activations. -/
theorem pay_eq_gates (v0 : Vec Ideal S8192x10 .f32) (v1 : Vec Ideal S8192x4 .f32) (v2 : Vec Ideal S10x12 .f32)
    (v5 : Vec Ideal S1x12 .f32) (v9 : Vec Ideal S4x12 .f32) (v12 : Vec Ideal S1x12 .f32) :
    k0_pay1 (F := Ideal) v0 v1 v2 v5 v9 v12 = gates (pre12x v0 v2 v5) (pre12h v1 v9 v12) v1 := rfl

/-- The stored value at row p, coordinate q is the fused cell of row p. -/
theorem pay_apply (v0 : Vec Ideal S8192x10 .f32) (v1 : Vec Ideal S8192x4 .f32) (v2 : Vec Ideal S10x12 .f32)
    (v5 : Vec Ideal S1x12 .f32) (v9 : Vec Ideal S4x12 .f32) (v12 : Vec Ideal S1x12 .f32) (p : Fin 8192) (q : Fin 4) :
    k0_pay1 (F := Ideal) v0 v1 v2 v5 v9 v12 (ix2 p q)
      = Cert.GruSpec.cellFused (fun k => v0 (ix2 p k)) (fun k => v1 (ix2 p k)) (fun k c => v2 (ix2 k c))
          (fun c => v5 (ix2 (0 : Fin 1) c)) (fun k c => v9 (ix2 k c)) (fun c => v12 (ix2 (0 : Fin 1) c)) q := by
  rw [pay_eq_gates, gates_apply]
  simp only [pre12x_apply, pre12h_apply]
  rfl

end Cert.KernelIdeal.PayValue

end
-- ==== Proof.FusedArrays.lean ====
/-
  The side-by-side arrays read column by column.

  Three n × 4 matrices laid side by side along the columns form an n × 12 matrix whose column j is column j of
  the first, column j + 4 column j of the second, and column j + 8 column j of the third. When each n × 4
  matrix is the transpose of a 4 × n matrix W, its entry (k, j) is W (j, k): so column j, j + 4 or j + 8 of
  the twelve-column matrix is row j of the matrix it came from. Likewise three vectors of four joined into one
  vector of twelve, then seen as one row.
-/
import proofs.«101321_j53386443489424_2_alg».proof.Proof.HostArrays
import proofs.«101321_j53386443489424_2_alg».proof.Proof.Spec
import Idealize.ShloMosaic.Lib.Pipeline.Value
import Idealize.ShloMosaic.Lib.ValueIdx
import Idealize.ShloMosaic.Lib.ValueLayout

noncomputable section

namespace Cert.KernelIdeal.PayValue

open Cert.KernelIdeal Cert.KernelIdeal.Gen Idealize.ShloMosaic Idealize.ShloMosaic.ValueIdx
open Cert.GruSpec (colZ colR colN)

/-! ## Three blocks of four columns side by side -/

section Side
variable {α : Type} {n : Nat} (x0 x1 x2 : (⟨2, ![n, 4]⟩ : Shape).Idx → α)
  (h : Shape.Concatenates [⟨2, ![n, 4]⟩, ⟨2, ![n, 4]⟩, ⟨2, ![n, 4]⟩] ⟨2, ![n, 12]⟩ 1) (k : Fin n) (j : Fin 4)

/-- Column j of the twelve is column j of the first block. -/
theorem side_colZ :
    concatenate (⟨2, ![n, 12]⟩ : Shape) 1 [⟨⟨2, ![n, 4]⟩, x0⟩, ⟨⟨2, ![n, 4]⟩, x1⟩, ⟨⟨2, ![n, 4]⟩, x2⟩] h (ix2 k (colZ j))
      = x0 (ix2 k j) :=
  concatenate_apply_piece 1 [⟨⟨2, ![n, 4]⟩, x0⟩, ⟨⟨2, ![n, 4]⟩, x1⟩, ⟨⟨2, ![n, 4]⟩, x2⟩] h (ix2 k (colZ j)) 0 (by show (0 : Nat) < 3; decide) ⟨2, ![n, 4]⟩ x0 rfl rfl 0 rfl (ix2 k j)
    (fun b hb => by
      match b with
      | ⟨0, _⟩ => rfl
      | ⟨1, _⟩ => exact absurd rfl hb)
    (Nat.zero_add _)

/-- Column j + 4 of the twelve is column j of the second block. -/
theorem side_colR :
    concatenate (⟨2, ![n, 12]⟩ : Shape) 1 [⟨⟨2, ![n, 4]⟩, x0⟩, ⟨⟨2, ![n, 4]⟩, x1⟩, ⟨⟨2, ![n, 4]⟩, x2⟩] h (ix2 k (colR j))
      = x1 (ix2 k j) :=
  concatenate_apply_piece 1 [⟨⟨2, ![n, 4]⟩, x0⟩, ⟨⟨2, ![n, 4]⟩, x1⟩, ⟨⟨2, ![n, 4]⟩, x2⟩] h (ix2 k (colR j)) 1 (by show (1 : Nat) < 3; decide) ⟨2, ![n, 4]⟩ x1 rfl rfl 4 rfl (ix2 k j)
    (fun b hb => by
      match b with
      | ⟨0, _⟩ => rfl
      | ⟨1, _⟩ => exact absurd rfl hb)
    (Nat.add_comm _ _)

/-- Column j + 8 of the twelve is column j of the third block. -/
theorem side_colN :
    concatenate (⟨2, ![n, 12]⟩ : Shape) 1 [⟨⟨2, ![n, 4]⟩, x0⟩, ⟨⟨2, ![n, 4]⟩, x1⟩, ⟨⟨2, ![n, 4]⟩, x2⟩] h (ix2 k (colN j))
      = x2 (ix2 k j) :=
  concatenate_apply_piece 1 [⟨⟨2, ![n, 4]⟩, x0⟩, ⟨⟨2, ![n, 4]⟩, x1⟩, ⟨⟨2, ![n, 4]⟩, x2⟩] h (ix2 k (colN j)) 2 (by show (2 : Nat) < 3; decide) ⟨2, ![n, 4]⟩ x2 rfl rfl 8 rfl (ix2 k j)
    (fun b hb => by
      match b with
      | ⟨0, _⟩ => rfl
      | ⟨1, _⟩ => exact absurd rfl hb)
    (Nat.add_comm _ _)

end Side

/-! ## Three vectors of four joined, as one row -/

section Row
variable {α : Type} (y0 y1 y2 : (⟨1, ![4]⟩ : Shape).Idx → α)
  (h : Shape.Concatenates [⟨1, ![4]⟩, ⟨1, ![4]⟩, ⟨1, ![4]⟩] ⟨1, ![12]⟩ 0)
  (hc : (⟨1, ![12]⟩ : Shape).ShapeCasts ⟨2, ![1, 12]⟩) (j : Fin 4)

/-- The one row at column c is the vector of twelve at c. -/
theorem row_apply (y : (⟨1, ![12]⟩ : Shape).Idx → α) (c : Fin 12) :
    shapeCast (⟨2, ![1, 12]⟩ : Shape) y hc (ix2 (0 : Fin 1) c) = y (ix1 c) :=
  shapeCast_apply y hc _ _ (by
    rw [Shape.rowMajor_val_one, Shape.rowMajor_val_two]
    show c.val = 0 * 12 + c.val
    rw [Nat.zero_mul, Nat.zero_add])

/-- Entry j of the twelve is entry j of the first vector. -/
theorem join_colZ :
    concatenate (⟨1, ![12]⟩ : Shape) 0 [⟨⟨1, ![4]⟩, y0⟩, ⟨⟨1, ![4]⟩, y1⟩, ⟨⟨1, ![4]⟩, y2⟩] h (ix1 (colZ j)) = y0 (ix1 j) :=
  concatenate_apply_piece 0 [⟨⟨1, ![4]⟩, y0⟩, ⟨⟨1, ![4]⟩, y1⟩, ⟨⟨1, ![4]⟩, y2⟩] h (ix1 (colZ j)) 0 (by show (0 : Nat) < 3; decide) ⟨1, ![4]⟩ y0 rfl rfl 0 rfl (ix1 j)
    (fun b hb => by
      match b with
      | ⟨0, _⟩ => exact absurd rfl hb)
    (Nat.zero_add _)

/-- Entry j + 4 of the twelve is entry j of the second vector. -/
theorem join_colR :
    concatenate (⟨1, ![12]⟩ : Shape) 0 [⟨⟨1, ![4]⟩, y0⟩, ⟨⟨1, ![4]⟩, y1⟩, ⟨⟨1, ![4]⟩, y2⟩] h (ix1 (colR j)) = y1 (ix1 j) :=
  concatenate_apply_piece 0 [⟨⟨1, ![4]⟩, y0⟩, ⟨⟨1, ![4]⟩, y1⟩, ⟨⟨1, ![4]⟩, y2⟩] h (ix1 (colR j)) 1 (by show (1 : Nat) < 3; decide) ⟨1, ![4]⟩ y1 rfl rfl 4 rfl (ix1 j)
    (fun b hb => by
      match b with
      | ⟨0, _⟩ => exact absurd rfl hb)
    (Nat.add_comm _ _)

/-- Entry j + 8 of the twelve is entry j of the third vector. -/
theorem join_colN :
    concatenate (⟨1, ![12]⟩ : Shape) 0 [⟨⟨1, ![4]⟩, y0⟩, ⟨⟨1, ![4]⟩, y1⟩, ⟨⟨1, ![4]⟩, y2⟩] h (ix1 (colN j)) = y2 (ix1 j) :=
  concatenate_apply_piece 0 [⟨⟨1, ![4]⟩, y0⟩, ⟨⟨1, ![4]⟩, y1⟩, ⟨⟨1, ![4]⟩, y2⟩] h (ix1 (colN j)) 2 (by show (2 : Nat) < 3; decide) ⟨1, ![4]⟩ y2 rfl rfl 8 rfl (ix1 j)
    (fun b hb => by
      match b with
      | ⟨0, _⟩ => exact absurd rfl hb)
    (Nat.add_comm _ _)

end Row

/-! ## The input path's matrix -/

section SideX
variable (a b d : S4x10.Idx → Elt Ideal .f32) (k : Fin 10) (j : Fin 4)

theorem sideX_colZ : HostArrays.sideX (F := Ideal) a b d (ix2 k (colZ j)) = a (ix2 j k) := by
  unfold HostArrays.sideX
  exact (side_colZ _ _ _ concatenates_S10x4_S10x4_S10x4_S10x12_d1 k j).trans
    (transpose_ix2_apply a transposes_S4x10_S10x4_1_0 k j)

theorem sideX_colR : HostArrays.sideX (F := Ideal) a b d (ix2 k (colR j)) = b (ix2 j k) := by
  unfold HostArrays.sideX
  exact (side_colR _ _ _ concatenates_S10x4_S10x4_S10x4_S10x12_d1 k j).trans
    (transpose_ix2_apply b transposes_S4x10_S10x4_1_0 k j)

theorem sideX_colN : HostArrays.sideX (F := Ideal) a b d (ix2 k (colN j)) = d (ix2 j k) := by
  unfold HostArrays.sideX
  exact (side_colN _ _ _ concatenates_S10x4_S10x4_S10x4_S10x12_d1 k j).trans
    (transpose_ix2_apply d transposes_S4x10_S10x4_1_0 k j)

end SideX

/-! ## The hidden path's matrix -/

section SideH
variable (a b d : S4x4.Idx → Elt Ideal .f32) (k : Fin 4) (j : Fin 4)

theorem sideH_colZ : HostArrays.sideH (F := Ideal) a b d (ix2 k (colZ j)) = a (ix2 j k) := by
  unfold HostArrays.sideH
  exact (side_colZ _ _ _ concatenates_S4x4_S4x4_S4x4_S4x12_d1 k j).trans
    (transpose_ix2_apply a transposes_S4x4_S4x4_1_0 k j)

theorem sideH_colR : HostArrays.sideH (F := Ideal) a b d (ix2 k (colR j)) = b (ix2 j k) := by
  unfold HostArrays.sideH
  exact (side_colR _ _ _ concatenates_S4x4_S4x4_S4x4_S4x12_d1 k j).trans
    (transpose_ix2_apply b transposes_S4x4_S4x4_1_0 k j)

theorem sideH_colN : HostArrays.sideH (F := Ideal) a b d (ix2 k (colN j)) = d (ix2 j k) := by
  unfold HostArrays.sideH
  exact (side_colN _ _ _ concatenates_S4x4_S4x4_S4x4_S4x12_d1 k j).trans
    (transpose_ix2_apply d transposes_S4x4_S4x4_1_0 k j)

end SideH

/-! ## A path's bias row -/

section RowB
variable (a b d : S4.Idx → Elt Ideal .f32) (j : Fin 4)

theorem rowB_colZ : HostArrays.rowB (F := Ideal) a b d (ix2 (0 : Fin 1) (colZ j)) = a (ix1 j) := by
  unfold HostArrays.rowB
  exact (row_apply shapeCasts_S12_S1x12 _ (colZ j)).trans (join_colZ a b d concatenates_S4_S4_S4_S12_d0 j)

theorem rowB_colR : HostArrays.rowB (F := Ideal) a b d (ix2 (0 : Fin 1) (colR j)) = b (ix1 j) := by
  unfold HostArrays.rowB
  exact (row_apply shapeCasts_S12_S1x12 _ (colR j)).trans (join_colR a b d concatenates_S4_S4_S4_S12_d0 j)

theorem rowB_colN : HostArrays.rowB (F := Ideal) a b d (ix2 (0 : Fin 1) (colN j)) = d (ix1 j) := by
  unfold HostArrays.rowB
  exact (row_apply shapeCasts_S12_S1x12 _ (colN j)).trans (join_colN a b d concatenates_S4_S4_S4_S12_d0 j)

end RowB

end Cert.KernelIdeal.PayValue

end
-- ==== Proof.KernelValue.lean ====
/-
  The kernel's result array is the specification of the launch memory.

  At point t the body's value at (p, q) is the fused cell of row p of the x and h blocks and of the
  four whole arrays (the payload read at an index). Row p of those blocks is row 8192·t + p of x and h;
  the whole arrays are the side-by-side matrices and joined bias rows the host operations built, whose
  column q, q + 4, q + 8 is row q of the update gate's, the reset gate's, the candidate's matrix. So the
  fused cell is the cell, which is the specification at (8192·t + p, q); the blocks cover the result.
-/
import proofs.«101321_j53386443489424_2_alg».proof.Proof.Blocks
import proofs.«101321_j53386443489424_2_alg».proof.Proof.HostArrays
import proofs.«101321_j53386443489424_2_alg».proof.Proof.PayValue
import proofs.«101321_j53386443489424_2_alg».proof.Proof.FusedArrays
import proofs.«101321_j53386443489424_2_alg».proof.Proof.Spec

noncomputable section

namespace Cert.KernelIdeal.KValue

open Cert.KernelIdeal Cert.KernelIdeal.Gen Cert.KernelIdeal.Frame Cert.KernelIdeal.Blocks Cert.KernelIdeal.HostArrays
open Cert.KernelIdeal.PayValue Cert.GruSpec
open Idealize.ShloMosaic Idealize.ShloMosaic.TcCoe Idealize.SL.Sem Idealize.ShloMosaic.ValueIdx

variable (m : (ℓ : Loc nD τ sig) → Buf (Elt Ideal) ℓ) (ρ : Dev nD → PrngReg)

/-- The specification applied to core c's fourteen argument arrays as launched. -/
def G (c : Dev nD) : S4194304x4.Idx → EReal :=
  gru (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))

/-- Row p of point t's x block is row 8192·t + p of x; the same for h. -/
theorem rowX (c : Dev nD) (t : Fin cfg0.N) (p : Fin 8192) :
    (fun k : Fin 10 => iblk m c 0 t (ix2 p k)) = mat (m ((c.tc : Thread nD τ).loc main_arg0)) (rowOf t p) :=
  funext fun k => (iblk0_apply m c t p k).trans (congrFun (V_main_arg0 m c) _)

theorem rowH (c : Dev nD) (t : Fin cfg0.N) (p : Fin 8192) :
    (fun k : Fin 4 => iblk m c 1 t (ix2 p k)) = mat (m ((c.tc : Thread nD τ).loc main_arg1)) (rowOf t p) :=
  funext fun k => (iblk1_apply m c t p k).trans (congrFun (V_main_arg1 m c) _)

/-- The four whole windows hold the arrays the host operations built. -/
theorem blkWx (c : Dev nD) (t : Fin cfg0.N) (k : Fin 10) (j : Fin 12) :
    iblk m c 2 t (ix2 k j) = sideX (F := Ideal) (m ((c.tc : Thread nD τ).loc main_arg4)) (m ((c.tc : Thread nD τ).loc main_arg8)) (m ((c.tc : Thread nD τ).loc main_arg10)) (ix2 k j) :=
  (iblk2_apply m c t k j).trans (congrFun (V_main_v3 m c) _)

theorem blkBx (c : Dev nD) (t : Fin cfg0.N) (j : Fin 12) :
    iblk m c 3 t (ix2 (0 : Fin 1) j) = rowB (F := Ideal) (m ((c.tc : Thread nD τ).loc main_arg5)) (m ((c.tc : Thread nD τ).loc main_arg9)) (m ((c.tc : Thread nD τ).loc main_arg11)) (ix2 (0 : Fin 1) j) :=
  (iblk3_apply m c t 0 j).trans (congrFun (V_main_v9 m c) _)

theorem blkWh (c : Dev nD) (t : Fin cfg0.N) (k : Fin 4) (j : Fin 12) :
    iblk m c 4 t (ix2 k j) = sideH (F := Ideal) (m ((c.tc : Thread nD τ).loc main_arg2)) (m ((c.tc : Thread nD τ).loc main_arg6)) (m ((c.tc : Thread nD τ).loc main_arg12)) (ix2 k j) :=
  (iblk4_apply m c t k j).trans (congrFun (V_main_v7 m c) _)

theorem blkBh (c : Dev nD) (t : Fin cfg0.N) (j : Fin 12) :
    iblk m c 5 t (ix2 (0 : Fin 1) j) = rowB (F := Ideal) (m ((c.tc : Thread nD τ).loc main_arg3)) (m ((c.tc : Thread nD τ).loc main_arg7)) (m ((c.tc : Thread nD τ).loc main_arg13)) (ix2 (0 : Fin 1) j) :=
  (iblk5_apply m c t 0 j).trans (congrFun (V_main_v11 m c) _)

/-- The body's value on point t's blocks, at (p, q), is the specification at (8192·t + p, q). -/
theorem pay_is_G (c : Dev nD) (t : Fin cfg0.N) (p : Fin 8192) (q : Fin 4) :
    k0_pay1 (F := Ideal) (iblk m c 0 t) (iblk m c 1 t) (iblk m c 2 t) (iblk m c 3 t) (iblk m c 4 t) (iblk m c 5 t) (ix2 p q)
      = G m c (ix2 (rowOf t p) q) := by
  refine (pay_apply (iblk m c 0 t) (iblk m c 1 t) (iblk m c 2 t) (iblk m c 3 t) (iblk m c 4 t) (iblk m c 5 t) p q).trans ?_
  rw [rowX m c t p, rowH m c t p]
  unfold G
  rw [gru_apply]
  exact cellFused_eq_cell _ _ _ _ _ _ _ _ _ _ _ _ _ _ _ _ _ _ q
    (fun k => (blkWx m c t k (colZ q)).trans (sideX_colZ _ _ _ k q))
    (fun k => (blkWx m c t k (colR q)).trans (sideX_colR _ _ _ k q))
    (fun k => (blkWx m c t k (colN q)).trans (sideX_colN _ _ _ k q))
    ((blkBx m c t (colZ q)).trans (rowB_colZ _ _ _ q))
    ((blkBx m c t (colR q)).trans (rowB_colR _ _ _ q))
    ((blkBx m c t (colN q)).trans (rowB_colN _ _ _ q))
    (fun k => (blkWh m c t k (colZ q)).trans (sideH_colZ _ _ _ k q))
    (fun k => (blkWh m c t k (colR q)).trans (sideH_colR _ _ _ k q))
    (fun k => (blkWh m c t k (colN q)).trans (sideH_colN _ _ _ k q))
    ((blkBh m c t (colZ q)).trans (rowB_colZ _ _ _ q))
    ((blkBh m c t (colR q)).trans (rowB_colR _ _ _ q))
    ((blkBh m c t (colN q)).trans (rowB_colN _ _ _ q))

/-- The kernel's run: it terminates on every weakly fair schedule with the result at the specification of the
    launch memory and the fourteen arguments as launched. -/
theorem run : θ_run defs (onTc (τ := τ) (main (F := Ideal))) ⟨m, fun _ => 0, ρ⟩ (fun r => ∀ c : Dev nD,
      r.2.mem ((c.tc : Thread nD τ).loc main_v12) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  run_value m ρ (G m) (pay_is_G m)

end Cert.KernelIdeal.KValue

end
-- ==== Proof.RefValue.lean ====
/-
  The reference program read index by index is one step of the gated recurrent unit.

  Entry (p, q) of a matrix product is a sum over k of the left operand at (p, k) times the right at
  (k, q); the right operand is a transposed weight matrix, so its entry (k, q) is the weight at
  (q, k), and the product's entry is the inner product of row p of the left operand with row q of the
  weight. A bias vector spread over all rows, read at (p, q), is the bias at q. The number one
  spread over the whole array, read anywhere, is the word for one. With these three readings each
  gate's entry (p, q) is, operation by operation, the expression the specification writes for
  coordinate q of the cell on row p, with the summands of each pre-activation in the order
  hidden product, hidden bias, input product, input bias.
-/
import proofs.«101321_j53386443489424_2_alg».proof.Proof.Gen.ReferenceIdeal.Read
import proofs.«101321_j53386443489424_2_alg».proof.Proof.Spec

set_option maxRecDepth 16384

noncomputable section

namespace Cert.ReferenceIdeal.RefValue

open Cert.ReferenceIdeal Cert.ReferenceIdeal.Gen Cert.ReferenceIdeal.Read Idealize.ShloMosaic Idealize.ShloMosaic.ValueIdx
open Cert.GruSpec (one sigm dot mat vec cell cellRef gru)

/-! ## Products with a transposed weight matrix

Entry (p, q) of a · Wᵀ is Σ_k a(p, k) · Wᵀ(k, q) = Σ_k a(p, k) · W(q, k): the inner product of row p
of a with row q of W. -/

/-- Entry (p, q) of hidden · Wzhᵀ. -/
theorem v1_at (x1 : (⟨S4194304x4, .f32⟩ : BufTy).Contents (Elt Ideal)) (x2 : (⟨S4x4, .f32⟩ : BufTy).Contents (Elt Ideal))
    (p : Fin 4194304) (q : Fin 4) :
    val_main_v1 (F := Ideal) x1 x2 (ix2 p q) = dot (mat x1 p) (mat x2 q) := by
  rw [val_main_v1_apply]
  unfold dot mat
  refine Finset.sum_congr rfl fun k _ => ?_
  rw [val_main_v0_apply]
  have e1 : lidx_main_v1 (ix2 p q) k = ix2 p k :=
    funext fun a => by match a with | ⟨0, _⟩ => rfl | ⟨1, _⟩ => rfl
  have e2 : idx_main_v0 (ridx_main_v1 (ix2 p q) k) = ix2 q k :=
    funext fun a => by match a with | ⟨0, _⟩ => rfl | ⟨1, _⟩ => rfl
  rw [e1, e2]

/-- Entry (p, q) of x · Wzxᵀ. -/
theorem v6_at (x0 : (⟨S4194304x10, .f32⟩ : BufTy).Contents (Elt Ideal)) (x4 : (⟨S4x10, .f32⟩ : BufTy).Contents (Elt Ideal))
    (p : Fin 4194304) (q : Fin 4) :
    val_main_v6 (F := Ideal) x0 x4 (ix2 p q) = dot (mat x0 p) (mat x4 q) := by
  rw [val_main_v6_apply]
  unfold dot mat
  refine Finset.sum_congr rfl fun k _ => ?_
  rw [val_main_v5_apply]
  have e1 : lidx_main_v6 (ix2 p q) k = ix2 p k :=
    funext fun a => by match a with | ⟨0, _⟩ => rfl | ⟨1, _⟩ => rfl
  have e2 : idx_main_v5 (ridx_main_v6 (ix2 p q) k) = ix2 q k :=
    funext fun a => by match a with | ⟨0, _⟩ => rfl | ⟨1, _⟩ => rfl
  rw [e1, e2]

/-- Entry (p, q) of hidden · Wrhᵀ. -/
theorem v18_at (x1 : (⟨S4194304x4, .f32⟩ : BufTy).Contents (Elt Ideal)) (x6 : (⟨S4x4, .f32⟩ : BufTy).Contents (Elt Ideal))
    (p : Fin 4194304) (q : Fin 4) :
    val_main_v18 (F := Ideal) x1 x6 (ix2 p q) = dot (mat x1 p) (mat x6 q) := by
  rw [val_main_v18_apply]
  unfold dot mat
  refine Finset.sum_congr rfl fun k _ => ?_
  rw [val_main_v17_apply]
  have e1 : lidx_main_v18 (ix2 p q) k = ix2 p k :=
    funext fun a => by match a with | ⟨0, _⟩ => rfl | ⟨1, _⟩ => rfl
  have e2 : idx_main_v17 (ridx_main_v18 (ix2 p q) k) = ix2 q k :=
    funext fun a => by match a with | ⟨0, _⟩ => rfl | ⟨1, _⟩ => rfl
  rw [e1, e2]

/-- Entry (p, q) of x · Wrxᵀ. -/
theorem v23_at (x0 : (⟨S4194304x10, .f32⟩ : BufTy).Contents (Elt Ideal)) (x8 : (⟨S4x10, .f32⟩ : BufTy).Contents (Elt Ideal))
    (p : Fin 4194304) (q : Fin 4) :
    val_main_v23 (F := Ideal) x0 x8 (ix2 p q) = dot (mat x0 p) (mat x8 q) := by
  rw [val_main_v23_apply]
  unfold dot mat
  refine Finset.sum_congr rfl fun k _ => ?_
  rw [val_main_v22_apply]
  have e1 : lidx_main_v23 (ix2 p q) k = ix2 p k :=
    funext fun a => by match a with | ⟨0, _⟩ => rfl | ⟨1, _⟩ => rfl
  have e2 : idx_main_v22 (ridx_main_v23 (ix2 p q) k) = ix2 q k :=
    funext fun a => by match a with | ⟨0, _⟩ => rfl | ⟨1, _⟩ => rfl
  rw [e1, e2]

/-- Entry (p, q) of hidden · Wnhᵀ. -/
theorem v35_at (x1 : (⟨S4194304x4, .f32⟩ : BufTy).Contents (Elt Ideal)) (x12 : (⟨S4x4, .f32⟩ : BufTy).Contents (Elt Ideal))
    (p : Fin 4194304) (q : Fin 4) :
    val_main_v35 (F := Ideal) x1 x12 (ix2 p q) = dot (mat x1 p) (mat x12 q) := by
  rw [val_main_v35_apply]
  unfold dot mat
  refine Finset.sum_congr rfl fun k _ => ?_
  rw [val_main_v34_apply]
  have e1 : lidx_main_v35 (ix2 p q) k = ix2 p k :=
    funext fun a => by match a with | ⟨0, _⟩ => rfl | ⟨1, _⟩ => rfl
  have e2 : idx_main_v34 (ridx_main_v35 (ix2 p q) k) = ix2 q k :=
    funext fun a => by match a with | ⟨0, _⟩ => rfl | ⟨1, _⟩ => rfl
  rw [e1, e2]

/-- Entry (p, q) of x · Wnxᵀ. -/
theorem v41_at (x0 : (⟨S4194304x10, .f32⟩ : BufTy).Contents (Elt Ideal)) (x10 : (⟨S4x10, .f32⟩ : BufTy).Contents (Elt Ideal))
    (p : Fin 4194304) (q : Fin 4) :
    val_main_v41 (F := Ideal) x0 x10 (ix2 p q) = dot (mat x0 p) (mat x10 q) := by
  rw [val_main_v41_apply]
  unfold dot mat
  refine Finset.sum_congr rfl fun k _ => ?_
  rw [val_main_v40_apply]
  have e1 : lidx_main_v41 (ix2 p q) k = ix2 p k :=
    funext fun a => by match a with | ⟨0, _⟩ => rfl | ⟨1, _⟩ => rfl
  have e2 : idx_main_v40 (ridx_main_v41 (ix2 p q) k) = ix2 q k :=
    funext fun a => by match a with | ⟨0, _⟩ => rfl | ⟨1, _⟩ => rfl
  rw [e1, e2]

/-! ## Bias vectors spread over the rows

A vector of length 4 made a 1 × 4 row and the row repeated 4194304 times: entry (p, q) is entry q of
the vector. -/

/-- bzh over the rows. -/
theorem v3_at (x3 : (⟨S4, .f32⟩ : BufTy).Contents (Elt Ideal)) (p : Fin 4194304) (q : Fin 4) :
    val_main_v3 (F := Ideal) x3 (ix2 p q) = vec x3 q := by
  rw [val_main_v3_apply, val_main_v2_apply]
  unfold vec
  have e : idx_main_v2 (idx_main_v3 (ix2 p q)) = ix1 q :=
    funext fun a => by match a with | ⟨0, _⟩ => rfl
  rw [e]

/-- bzx over the rows. -/
theorem v9_at (x5 : (⟨S4, .f32⟩ : BufTy).Contents (Elt Ideal)) (p : Fin 4194304) (q : Fin 4) :
    val_main_v9 (F := Ideal) x5 (ix2 p q) = vec x5 q := by
  rw [val_main_v9_apply, val_main_v8_apply]
  unfold vec
  have e : idx_main_v8 (idx_main_v9 (ix2 p q)) = ix1 q :=
    funext fun a => by match a with | ⟨0, _⟩ => rfl
  rw [e]

/-- brh over the rows. -/
theorem v20_at (x7 : (⟨S4, .f32⟩ : BufTy).Contents (Elt Ideal)) (p : Fin 4194304) (q : Fin 4) :
    val_main_v20 (F := Ideal) x7 (ix2 p q) = vec x7 q := by
  rw [val_main_v20_apply, val_main_v19_apply]
  unfold vec
  have e : idx_main_v19 (idx_main_v20 (ix2 p q)) = ix1 q :=
    funext fun a => by match a with | ⟨0, _⟩ => rfl
  rw [e]

/-- brx over the rows. -/
theorem v26_at (x9 : (⟨S4, .f32⟩ : BufTy).Contents (Elt Ideal)) (p : Fin 4194304) (q : Fin 4) :
    val_main_v26 (F := Ideal) x9 (ix2 p q) = vec x9 q := by
  rw [val_main_v26_apply, val_main_v25_apply]
  unfold vec
  have e : idx_main_v25 (idx_main_v26 (ix2 p q)) = ix1 q :=
    funext fun a => by match a with | ⟨0, _⟩ => rfl
  rw [e]

/-- bnh over the rows. -/
theorem v37_at (x13 : (⟨S4, .f32⟩ : BufTy).Contents (Elt Ideal)) (p : Fin 4194304) (q : Fin 4) :
    val_main_v37 (F := Ideal) x13 (ix2 p q) = vec x13 q := by
  rw [val_main_v37_apply, val_main_v36_apply]
  unfold vec
  have e : idx_main_v36 (idx_main_v37 (ix2 p q)) = ix1 q :=
    funext fun a => by match a with | ⟨0, _⟩ => rfl
  rw [e]

/-- bnx over the rows. -/
theorem v44_at (x11 : (⟨S4, .f32⟩ : BufTy).Contents (Elt Ideal)) (p : Fin 4194304) (q : Fin 4) :
    val_main_v44 (F := Ideal) x11 (ix2 p q) = vec x11 q := by
  rw [val_main_v44_apply, val_main_v43_apply]
  unfold vec
  have e : idx_main_v43 (idx_main_v44 (ix2 p q)) = ix1 q :=
    funext fun a => by match a with | ⟨0, _⟩ => rfl
  rw [e]

/-! ## The number one spread over the whole array

Every entry is the word 0x3F800000, which is the specification's `one` by definition. -/

theorem v13_at (i : S4194304x4.Idx) : val_main_v13 (F := Ideal) i = one := by
  rw [val_main_v13_apply, val_main_cst_apply]
  rfl

theorem v15_at (i : S4194304x4.Idx) : val_main_v15 (F := Ideal) i = one := by
  rw [val_main_v15_apply, val_main_cst_0_apply]
  rfl

theorem v30_at (i : S4194304x4.Idx) : val_main_v30 (F := Ideal) i = one := by
  rw [val_main_v30_apply, val_main_cst_1_apply]
  rfl

theorem v32_at (i : S4194304x4.Idx) : val_main_v32 (F := Ideal) i = one := by
  rw [val_main_v32_apply, val_main_cst_2_apply]
  rfl

theorem v47_at (i : S4194304x4.Idx) : val_main_v47 (F := Ideal) i = one := by
  rw [val_main_v47_apply, val_main_cst_3_apply]
  rfl

/-! ## The gates -/

/-- The update gate: 1 / (1 + e^(−v)) with v = ((⟨h, Wzh_q⟩ + bzh_q) + ⟨x, Wzx_q⟩) + bzx_q. -/
theorem z_at (x0 : (⟨S4194304x10, .f32⟩ : BufTy).Contents (Elt Ideal)) (x1 : (⟨S4194304x4, .f32⟩ : BufTy).Contents (Elt Ideal))
    (x2 : (⟨S4x4, .f32⟩ : BufTy).Contents (Elt Ideal)) (x3 : (⟨S4, .f32⟩ : BufTy).Contents (Elt Ideal)) (x4 : (⟨S4x10, .f32⟩ : BufTy).Contents (Elt Ideal)) (x5 : (⟨S4, .f32⟩ : BufTy).Contents (Elt Ideal))
    (p : Fin 4194304) (q : Fin 4) :
    val_main_v16 (F := Ideal) x0 x1 x2 x3 x4 x5 (ix2 p q)
      = sigm (((dot (mat x1 p) (mat x2 q) + vec x3 q) + dot (mat x0 p) (mat x4 q)) + vec x5 q) := by
  rw [val_main_v16_apply, v15_at, val_main_v14_apply, v13_at, val_main_v12_apply, val_main_v11_apply,
    val_main_v10_apply, val_main_v7_apply, val_main_v4_apply, v1_at, v3_at, v6_at, v9_at]
  rfl

/-- The reset gate: 1 / (1 + e^(−v)) with v = ((⟨h, Wrh_q⟩ + brh_q) + ⟨x, Wrx_q⟩) + brx_q. -/
theorem r_at (x0 : (⟨S4194304x10, .f32⟩ : BufTy).Contents (Elt Ideal)) (x1 : (⟨S4194304x4, .f32⟩ : BufTy).Contents (Elt Ideal))
    (x6 : (⟨S4x4, .f32⟩ : BufTy).Contents (Elt Ideal)) (x7 : (⟨S4, .f32⟩ : BufTy).Contents (Elt Ideal)) (x8 : (⟨S4x10, .f32⟩ : BufTy).Contents (Elt Ideal)) (x9 : (⟨S4, .f32⟩ : BufTy).Contents (Elt Ideal))
    (p : Fin 4194304) (q : Fin 4) :
    val_main_v33 (F := Ideal) x0 x1 x6 x7 x8 x9 (ix2 p q)
      = sigm (((dot (mat x1 p) (mat x6 q) + vec x7 q) + dot (mat x0 p) (mat x8 q)) + vec x9 q) := by
  rw [val_main_v33_apply, v32_at, val_main_v31_apply, v30_at, val_main_v29_apply, val_main_v28_apply,
    val_main_v27_apply, val_main_v24_apply, val_main_v21_apply, v18_at, v20_at, v23_at, v26_at]
  rfl

/-- The candidate: tanh((r · (⟨h, Wnh_q⟩ + bnh_q) + ⟨x, Wnx_q⟩) + bnx_q). -/
theorem n_at (x0 : (⟨S4194304x10, .f32⟩ : BufTy).Contents (Elt Ideal)) (x1 : (⟨S4194304x4, .f32⟩ : BufTy).Contents (Elt Ideal))
    (x6 : (⟨S4x4, .f32⟩ : BufTy).Contents (Elt Ideal)) (x7 : (⟨S4, .f32⟩ : BufTy).Contents (Elt Ideal)) (x8 : (⟨S4x10, .f32⟩ : BufTy).Contents (Elt Ideal)) (x9 : (⟨S4, .f32⟩ : BufTy).Contents (Elt Ideal))
    (x10 : (⟨S4x10, .f32⟩ : BufTy).Contents (Elt Ideal)) (x11 : (⟨S4, .f32⟩ : BufTy).Contents (Elt Ideal)) (x12 : (⟨S4x4, .f32⟩ : BufTy).Contents (Elt Ideal)) (x13 : (⟨S4, .f32⟩ : BufTy).Contents (Elt Ideal))
    (p : Fin 4194304) (q : Fin 4) :
    val_main_v46 (F := Ideal) x0 x1 x6 x7 x8 x9 x10 x11 x12 x13 (ix2 p q)
      = Ideal.tanh ((sigm (((dot (mat x1 p) (mat x6 q) + vec x7 q) + dot (mat x0 p) (mat x8 q)) + vec x9 q)
            * (dot (mat x1 p) (mat x12 q) + vec x13 q)
          + dot (mat x0 p) (mat x10 q)) + vec x11 q) := by
  rw [val_main_v46_apply, val_main_v45_apply, val_main_v42_apply, val_main_v39_apply, r_at,
    val_main_v38_apply, v35_at, v37_at, v41_at, v44_at]
  rfl

/-! ## The whole array -/

/-- The reference's result is the cell applied to every row. -/
theorem ref_is_gru
    (x0 : (⟨S4194304x10, .f32⟩ : BufTy).Contents (Elt Ideal)) (x1 : (⟨S4194304x4, .f32⟩ : BufTy).Contents (Elt Ideal))
    (x2 : (⟨S4x4, .f32⟩ : BufTy).Contents (Elt Ideal)) (x3 : (⟨S4, .f32⟩ : BufTy).Contents (Elt Ideal))
    (x4 : (⟨S4x10, .f32⟩ : BufTy).Contents (Elt Ideal)) (x5 : (⟨S4, .f32⟩ : BufTy).Contents (Elt Ideal))
    (x6 : (⟨S4x4, .f32⟩ : BufTy).Contents (Elt Ideal)) (x7 : (⟨S4, .f32⟩ : BufTy).Contents (Elt Ideal))
    (x8 : (⟨S4x10, .f32⟩ : BufTy).Contents (Elt Ideal)) (x9 : (⟨S4, .f32⟩ : BufTy).Contents (Elt Ideal))
    (x10 : (⟨S4x10, .f32⟩ : BufTy).Contents (Elt Ideal)) (x11 : (⟨S4, .f32⟩ : BufTy).Contents (Elt Ideal))
    (x12 : (⟨S4x4, .f32⟩ : BufTy).Contents (Elt Ideal)) (x13 : (⟨S4, .f32⟩ : BufTy).Contents (Elt Ideal)) :
    val_main_v51 (F := Ideal) x0 x1 x2 x3 x4 x5 x6 x7 x8 x9 x10 x11 x12 x13
      = Cert.GruSpec.gru x0 x1 x2 x3 x4 x5 x6 x7 x8 x9 x10 x11 x12 x13 := by
  funext i
  obtain ⟨p, q, rfl⟩ : ∃ (p : Fin 4194304) (q : Fin 4), i = ix2 p q := ⟨i 0, i 1, eq_ix2 i⟩
  rw [Cert.GruSpec.gru_apply, ← Cert.GruSpec.cellRef_eq_cell]
  rw [val_main_v51_apply, val_main_v49_apply, val_main_v50_apply, val_main_v48_apply, v47_at, z_at, n_at]
  rfl

end Cert.ReferenceIdeal.RefValue

end
-- ==== Proof.lean ====
/-
  One step of a gated recurrent unit on 4 194 304 rows: the kernel against its reference.

  Both programs compute, for every row, z = σ(x·Wzxᵀ + bzx + h·Wzhᵀ + bzh), r likewise,
  n = tanh(r · (h·Wnhᵀ + bnh) + x·Wnxᵀ + bnx) and (1 − z) · n + z · h, with σ(v) = 1 / (1 + e^(−v)). The
  kernel lays the three weight matrices of each path side by side, multiplies once per path in blocks of
  8192 rows, and picks columns; the reference multiplies six times and adds the four summands of each
  pre-activation in another order. On the extended reals the logistic function is that quotient by
  definition, a matrix product is a finite sum whatever its blocking, and addition is commutative and
  associative at every value, so the two results are equal entry by entry with no use of the inputs'
  finiteness (Proof/Spec.lean has the cell and the two laws; Proof/RefValue.lean reads the reference,
  Proof/PayValue.lean and Proof/FusedArrays.lean the kernel's body and its side-by-side arrays,
  Proof/Blocks.lean and Proof/KernelValue.lean go from blocks to the array).

  Each program's frame — it runs to the end, faults nowhere, leaves its arguments unchanged — is in
  Proof/FrameK.lean and Proof/FrameKI.lean for the two kernels, and the reference's is its run with the
  result dropped. The ideal pass rewrote nothing, so there is nothing to preserve.
-/
import proofs.«101321_j53386443489424_2_alg».proof.Defs
import proofs.«101321_j53386443489424_2_alg».proof.Proof.Gen.Kernel
import proofs.«101321_j53386443489424_2_alg».proof.Proof.Gen.KernelIdeal
import proofs.«101321_j53386443489424_2_alg».proof.Proof.Gen.ReferenceIdeal
import proofs.«101321_j53386443489424_2_alg».proof.Proof.Gen.Pre_finite_inputs
import proofs.«101321_j53386443489424_2_alg».proof.Proof.Gen.ReferenceIdeal.Run
import proofs.«101321_j53386443489424_2_alg».proof.Proof.Gen.ReferenceIdeal.Read
import proofs.«101321_j53386443489424_2_alg».proof.Proof.FrameK
import proofs.«101321_j53386443489424_2_alg».proof.Proof.FrameKI
import proofs.«101321_j53386443489424_2_alg».proof.Proof.KernelValue
import proofs.«101321_j53386443489424_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frame.frame m ρ

theorem frame_ki : Cert.frame_KernelIdeal := fun m ρ _ => Cert.KernelIdeal.Frame.frame m ρ

/-- The reference has no region: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the specification of the kernel's launch memory: the kernel's by its value
    run, the reference's by its run read index by index, on arguments that agree. -/
theorem algebraic : Cert.algebraic_KernelIdeal_ReferenceIdeal := by
  intro m ρ m' ρ' _ hagree
  refine ⟨fun c => Cert.KernelIdeal.KValue.G m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13⟩ := hagree c
  rw [Cert.ReferenceIdeal.Read.val_main_v51_eq, Cert.ReferenceIdeal.RefValue.ref_is_gru, h0, h1, h2, h3, h4, h5, h6, h7, h8, h9, h10, h11, h12, h13]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
